-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_0)) (v2 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_0) = v1 c
          ∧ r.2.mem ((c.tc : Thread Cert.KernelIdeal.nD Cert.KernelIdeal.τ).loc Cert.KernelIdeal.main_v12_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part5 {F : FTy → Type} [FloatOps F] (main_arg18 : FVec F S1024 .f32) (main_v83 : IVec S_ 1) (main_v84 : FVec F S1024x1024 .f32) (main_cst_32 : FVec F S_ .f32) : IVec S_ 1 :=
  let main_v85 : FVec F S1024x1024 .f32 := broadcastInDim S1024x1024 ![] bcast_S_S1024x1024 main_cst_32
  let main_v86 : IVec S1024x1024 1 := cmpf .olt main_v84 main_v85
  let main_c_33 : IVec S_ 1 := constantI S_ 1 1#1
  let main_v87 : IVec S_ 1 := (fun x v => Host.reduce IntOp.andi x v reducesTo_S1024x1024_S_d0_1 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  main_v93

def fn_part4 {F : FTy → Type} [FloatOps F] (main_arg14 : FVec F S1024 .f32) (main_arg15 : FVec F S1024x1024 .f32) (main_arg16 : FVec F S1024 .f32) (main_arg17 : FVec F S1024x1024 .f32) (main_arg18 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024x1024 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_arg17 main_arg18 main_v63 main_v67

def fn_part2 {F : FTy → Type} [FloatOps F] (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S16384x1024 .f32) (main_arg1 : FVec F S16384x1024 .f32) (main_arg2 : FVec F S16384x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S16384x1024 : Shape := ⟨2, ![16384, 1024]⟩
abbrev S1024x1024 : Shape := ⟨2, ![1024, 1024]⟩
abbrev S1024 : Shape := ⟨1, ![1024]⟩
abbrev S4096x1024 : Shape := ⟨2, ![4096, 1024]⟩
abbrev S1024x4096 : Shape := ⟨2, ![1024, 4096]⟩
abbrev S4096 : Shape := ⟨1, ![4096]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 33
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S4096x1024, .f32⟩
  | .hbm, ⟨20, _⟩ => ⟨S4096x1024, .f32⟩
  | .hbm, ⟨21, _⟩ => ⟨S1024x4096, .f32⟩
  | .hbm, ⟨22, _⟩ => ⟨S1024x4096, .bf16⟩
  | .hbm, ⟨23, _⟩ => ⟨S1024x4096, .f32⟩
  | .hbm, ⟨24, _⟩ => ⟨S1024x4096, .bf16⟩
  | .hbm, ⟨25, _⟩ => ⟨S1024, .f32⟩
  | .hbm, ⟨26, _⟩ => ⟨S1024, .f32⟩
  | .hbm, ⟨27, _⟩ => ⟨S1024, .f32⟩
  | .hbm, ⟨28, _⟩ => ⟨S1024, .f32⟩
  | .hbm, ⟨29, _⟩ => ⟨S4096, .f32⟩
  | .hbm, ⟨30, _⟩ => ⟨S1x4096, .f32⟩
  | .hbm, ⟨31, _⟩ => ⟨S16384x1024, .f32⟩
  | .hbm, ⟨32, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12_0 : Ref sig .tc := ⟨.hbm, 31, rfl⟩
abbrev main_v12_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S1024x1024_S1024x1024_S1024x1024_S1024x1024_S4096x1024_d0 : Shape.Concatenates [S1024x1024, S1024x1024, S1024x1024, S1024x1024] S4096x1024 0
  transposes_S4096x1024_S1024x4096_1_0 : S4096x1024.Transposes [1, 0] S1024x4096
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S16384x1024.size a
  hwx0_6 : ∀ i : grid0.Coords, EltTy.bits .f32 = 32 ∨ (Rect.block (s := S16384x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S16384x1024.size a
  hwx0_7 : ∀ i : grid0.Coords, EltTy.bits .f32 = 32 ∨ (Rect.block (s := S16384x1024) S256x1024.size (cc0_transform_7 i) (hinb0_7 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v12_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 92
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S1024x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S1024x1024, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S1024x1024, .f32⟩
  | .hbm, ⟨39, _⟩ => ⟨S16384x1024, .f32⟩
  | .hbm, ⟨40, _⟩ => ⟨S1x1024, .f32⟩
  | .hbm, ⟨41, _⟩ => ⟨S16384x1024, .f32⟩
  | .hbm, ⟨42, _⟩ => ⟨S16384x1024, .f32⟩
  | .hbm, ⟨43, _⟩ => ⟨S1024x1024, .f32⟩
  | .hbm, ⟨44, _⟩ => ⟨S16384x1024, .f32⟩
  | .hbm, ⟨45, _⟩ => ⟨S16384x1024, .f32⟩
  | .hbm, ⟨46, _⟩ => ⟨S1x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384x1024, .f32⟩
  | .hbm, ⟨56, _⟩ => ⟨S16384x1024, .f32⟩
  | .hbm, ⟨57, _⟩ => ⟨S1024x1024, .f32⟩
  | .hbm, ⟨58, _⟩ => ⟨S16384x1024, .f32⟩
  | .hbm, ⟨59, _⟩ => ⟨S1x1024, .f32⟩
  | .hbm, ⟨60, _⟩ => ⟨S16384x1024, .f32⟩
  | .hbm, ⟨61, _⟩ => ⟨S16384x1024, .f32⟩
  | .hbm, ⟨62, _⟩ => ⟨S1024x1024, .f32⟩
  | .hbm, ⟨63, _⟩ => ⟨S16384x1024, .f32⟩
  | .hbm, ⟨64, _⟩ => ⟨S16384x1024, .f32⟩
  | .hbm, ⟨65, _⟩ => ⟨S1x1024, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S_, .f32⟩
  | .hbm, ⟨71, _⟩ => ⟨S16384x1024, .f32⟩
  | .hbm, ⟨72, _⟩ => ⟨S16384x1024, .f32⟩
  | .hbm, ⟨73, _⟩ => ⟨S_, .f32⟩
  | .hbm, ⟨74, _⟩ => ⟨S16384x1024, .f32⟩
  | .hbm, ⟨75, _⟩ => ⟨S16384x1024, .f32⟩
  | .hbm, ⟨76, _⟩ => ⟨S1024x1024, .f32⟩
  | .hbm, ⟨77, _⟩ => ⟨S16384x1024, .f32⟩
  | .hbm, ⟨78, _⟩ => ⟨S1x1024, .f32⟩
  | .hbm, ⟨79, _⟩ => ⟨S16384x1024, .f32⟩
  | .hbm, ⟨80, _⟩ => ⟨S16384x1024, .f32⟩
  | .hbm, ⟨81, _⟩ => ⟨S1024x1024, .f32⟩
  | .hbm, ⟨82, _⟩ => ⟨S16384x1024, .f32⟩
  | .hbm, ⟨83, _⟩ => ⟨S16384x1024, .f32⟩
  | .hbm, ⟨84, _⟩ => ⟨S1x1024, .f32⟩
  | .hbm, ⟨85, _⟩ => ⟨S16384x1024, .f32⟩
  | .hbm, ⟨86, _⟩ => ⟨S16384x1024, .f32⟩
  | .hbm, ⟨87, _⟩ => ⟨S16384x1024, .f32⟩
  | .hbm, ⟨88, _⟩ => ⟨S16384x1024, .f32⟩
  | .hbm, ⟨89, _⟩ => ⟨S16384x1024, .f32⟩
  | .hbm, ⟨90, _⟩ => ⟨S16384x1024, .f32⟩
  | .hbm, ⟨91, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst : Ref sig .tc := ⟨.hbm, 32, rfl⟩
abbrev main_v13 : Ref sig .tc := ⟨.hbm, 33, rfl⟩
abbrev main_v14 : Ref sig .tc := ⟨.hbm, 34, rfl⟩
abbrev main_cst_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_1 : Ref sig .tc := ⟨.hbm, 51, rfl⟩
abbrev main_v30 : Ref sig .tc := ⟨.hbm, 52, rfl⟩
abbrev main_v31 : Ref sig .tc := ⟨.hbm, 53, rfl⟩
abbrev main_cst_2 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_3 : Ref sig .tc := ⟨.hbm, 70, rfl⟩
abbrev main_v47 : Ref sig .tc := ⟨.hbm, 71, rfl⟩
abbrev main_v48 : Ref sig .tc := ⟨.hbm, 72, rfl⟩
abbrev main_cst_4 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  dot_S16384x1024_S1024x1024_S16384x1024_1_0_0_1_n_n_wf : DotDims.WF S16384x1024 S1024x1024 S16384x1024 [1] [0] [0] [1] [] []

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.BitsEntry.lean ====
/-
  The program up to its one region. Before the region twelve host operations prepare three arrays from the sixteen
  weight and bias arguments: the four input-to-hidden weights stacked and transposed into one [1024, 4096] matrix, the
  four hidden-to-hidden weights likewise, and the four sums bW_g + bU_g laid side by side as one row [1, 4096]. None of
  them writes an argument array, so the region finds every argument as it was launched. The region's eight windows are
  the three batch arrays cut into 64 blocks of 256 rows, the three prepared arrays whole, and the two results cut like
  the batch arrays.
-/
import proofs.«154823_j9663676416791_2_alg».proof.Proof.Gen.Kernel.Launch
import proofs.«154823_j9663676416791_2_alg».proof.Proof.Gen.Kernel.Skeleton
import proofs.«154823_j9663676416791_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.CellFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core c's buffers when the region is entered: the launch contents after the twelve host operations. -/
abbrev V (c : Dev nD) (b : Ref sig .tc) : Buf (Elt F) ((c : Thread nD τ).loc b) :=
  StableHlo.after (List.flatten [hostOps0]) (fun b => m (c, b)) b

/-- The host operations allocate nothing. -/
theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation writes argument 0 (the inputs x): the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation writes argument 1 (the previous hidden state h): the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation writes argument 2 (the previous cell state c): the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation writes argument 3 (W_i): the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation writes argument 4 (bW_i): the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation writes argument 5 (W_o): the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation writes argument 6 (bW_o): the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation writes argument 7 (W_f): the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation writes argument 8 (bW_f): the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation writes argument 9 (W_c): the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation writes argument 10 (bW_c): the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation writes argument 11 (U_i): the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation writes argument 12 (bU_i): the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation writes argument 13 (U_o): the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation writes argument 14 (bU_o): the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation writes argument 15 (U_f): the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation writes argument 16 (bU_f): the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation writes argument 17 (U_c): the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation writes argument 18 (bU_c): the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-! ## The windows' blocks -/

/-- Window w's block at grid point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds the window's block at every point, whether the point fetches it or the block
    index has not moved since it was fetched, provided the body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds the window's block at every point, whether the point fetches it or the block
    index has not moved since it was fetched, provided the body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds the window's block at every point, whether the point fetches it or the block
    index has not moved since it was fetched, provided the body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds the window's block at every point, whether the point fetches it or the block
    index has not moved since it was fetched, provided the body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds the window's block at every point, whether the point fetches it or the block
    index has not moved since it was fetched, provided the body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds the window's block at every point, whether the point fetches it or the block
    index has not moved since it was fetched, provided the body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- In a final state with every array of the region at what the proof data says and every other buffer as the region
    found it, every argument array is as launched. The three batch arrays are input windows' arrays, which the region
    only reads; the sixteen weights and biases are no window's array. -/
theorem args_kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩

/-- So a run to such final states is a run after which the arguments are unchanged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => args_kept m dats hA r h c) h

end Cert.Kernel.CellFrame

end
-- ==== Proof.BitsBody.lean ====
/-
  The kernel body at one grid point. It loads the three batch blocks [256, 1024], the two stacked weight matrices
  [1024, 4096] and the bias row [1, 4096], computes the four gates' pre-activations as one [256, 4096] array, and stores
  the new hidden state and the new cell state, each a whole [256, 1024] block. (It also loads the two result buffers
  before storing into them and uses neither value.) So after the body each result buffer holds one whole-block store.
-/
import proofs.«154823_j9663676416791_2_alg».proof.Proof.Gen.Kernel.Launch
import proofs.«154823_j9663676416791_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.CellFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each buffer whole -/

abbrev rBatch : Rect S256x1024 := Rect.unit (s := S256x1024) ![0, 0] S256x1024.size inb_S256x1024_S256x1024_0_0
abbrev rWeight : Rect S1024x4096 := Rect.unit (s := S1024x4096) ![0, 0] S1024x4096.size inb_S1024x4096_S1024x4096_0_0
abbrev rBias : Rect S1x4096 := Rect.unit (s := S1x4096) ![0, 0] S1x4096.size inb_S1x4096_S1x4096_0_0

/-! ## What the body leaves in the two result buffers -/

/-- The hidden-state buffer after the body, from the six input blocks: its one store. -/
def outHidden (x0 x1 x2 : Vec F S256x1024 .f32) (x3 x4 : Vec F S1024x4096 .bf16) (x5 : Vec F S1x4096 .f32) : Vec F S256x1024 .f32 :=
  View.canon [⟨rBatch, k0_pay3 (View.ld x0 rBatch) (View.ld x1 rBatch) (View.ld x2 rBatch) (View.ld x3 rWeight) (View.ld x4 rWeight) (View.ld x5 rBias)⟩]

/-- The cell-state buffer after the body, from the six input blocks: its one store. -/
def outCell (x0 x1 x2 : Vec F S256x1024 .f32) (x3 x4 : Vec F S1024x4096 .bf16) (x5 : Vec F S1x4096 .f32) : Vec F S256x1024 .f32 :=
  View.canon [⟨rBatch, k0_pay2 (View.ld x0 rBatch) (View.ld x1 rBatch) (View.ld x2 rBatch) (View.ld x3 rWeight) (View.ld x4 rWeight) (View.ld x5 rBias)⟩]

/-- One store of the whole block covers the block. -/
theorem coverBatch (p0 : Vec F S256x1024 .f32) (y : S256x1024.Idx) :
    ∃ pc ∈ ([⟨rBatch, p0⟩] : List (View.Piece (Elt F) S256x1024 .f32)), y ∈ pc.1.set :=
  View.cover_of_tiled [⟨rBatch, p0⟩] S256x1024.size (by rfl) y

/-! ## The body's triple -/

set_option maxHeartbeats 1000000 in
/-- On whole staging buffers, the six inputs' at contents x0 … x5 and the two results' at anything, the body runs to its
    end holding the inputs' as they were and the results' at `outHidden` and `outCell` of the inputs. -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S256x1024 .f32) (harg7 : arg7.IsWhole) (arg8 : Memref sig .tc .vmem S256x1024 .f32) (harg8 : arg8.IsWhole)
    (x0 x1 x2 : Vec F S256x1024 .f32) (x3 x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outHidden x0 x1 x2 x3 x4 x5) ∗ owns (c : Thread nD τ) arg8 fullShare (outCell x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverBatch _)
  iexists _; isplitr
  swap; · iexact H7
  ipureintro
  exact View.read_writes_eq_canon _ _ _ (coverBatch _)

end Cert.Kernel.CellFrame

end
-- ==== Proof.BitsRun.lean ====
/-
  The region's run. At every grid point each input window's staging buffer holds its block of the array the region found,
  the body leaves it there, and leaves in the two result buffers the hidden-state block and the cell-state block computed
  from the six input blocks; the pipeline writes those back. So the program terminates without a fault, every result
  array ends as the blocks written back, and every other array ends as the region found it: in particular every argument
  ends as launched.
-/
import proofs.«154823_j9663676416791_2_alg».proof.Proof.BitsEntry
import proofs.«154823_j9663676416791_2_alg».proof.Proof.BitsBody

set_option maxRecDepth 16384

noncomputable section

namespace Cert.Kernel.CellFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data of the pipeline -/

/-- On core c: the arrays as the region finds them; after the body at point t each input's buffer at its block and the
    two results' at the body's stores over the input blocks; nothing else held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outHidden (iblk m c 0 t) (iblk m c 1 t) (iblk m c 2 t) (iblk m c 3 t) (iblk m c 4 t) (iblk m c 5 t)
    | ⟨7, _⟩ => outCell (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outHidden (iblk m c 0 t) (iblk m c 1 t) (iblk m c 2 t) (iblk m c 3 t) (iblk m c 4 t) (iblk m c 5 t) := by dsimp only [dats]
theorem after7 (c : Dev nD) (t : Fin cfg0.N) : (dats m 0 c).after 7 t = outCell (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation at a generic point -/

/-- What the body is called with at point t, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the input buffers hold their blocks, so the body's triple applies; what else is held passes
    through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates without a fault, every
    array of the region at what the proof data computes and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its nineteen argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.Kernel.CellFrame

end
-- ==== Proof.IdealEntry.lean ====
/-
  The program up to its one region. Before the region twelve host operations prepare three arrays from the sixteen
  weight and bias arguments: the four input-to-hidden weights stacked and transposed into one [1024, 4096] matrix, the
  four hidden-to-hidden weights likewise, and the four sums bW_g + bU_g laid side by side as one row [1, 4096]. None of
  them writes an argument array, so the region finds every argument as it was launched. The region's eight windows are
  the three batch arrays cut into 64 blocks of 256 rows, the three prepared arrays whole, and the two results cut like
  the batch arrays.
-/
import proofs.«154823_j9663676416791_2_alg».proof.Proof.Gen.KernelIdeal.Launch
import proofs.«154823_j9663676416791_2_alg».proof.Proof.Gen.KernelIdeal.Skeleton
import proofs.«154823_j9663676416791_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.CellFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core c's buffers when the region is entered: the launch contents after the twelve host operations. -/
abbrev V (c : Dev nD) (b : Ref sig .tc) : Buf (Elt F) ((c : Thread nD τ).loc b) :=
  StableHlo.after (List.flatten [hostOps0]) (fun b => m (c, b)) b

/-- The host operations allocate nothing. -/
theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation writes argument 0 (the inputs x): the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation writes argument 1 (the previous hidden state h): the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation writes argument 2 (the previous cell state c): the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation writes argument 3 (W_i): the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation writes argument 4 (bW_i): the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation writes argument 5 (W_o): the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation writes argument 6 (bW_o): the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation writes argument 7 (W_f): the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation writes argument 8 (bW_f): the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation writes argument 9 (W_c): the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation writes argument 10 (bW_c): the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation writes argument 11 (U_i): the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation writes argument 12 (bU_i): the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation writes argument 13 (U_o): the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation writes argument 14 (bU_o): the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation writes argument 15 (U_f): the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation writes argument 16 (bU_f): the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation writes argument 17 (U_c): the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation writes argument 18 (bU_c): the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-! ## The windows' blocks -/

/-- Window w's block at grid point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds the window's block at every point, whether the point fetches it or the block
    index has not moved since it was fetched, provided the body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds the window's block at every point, whether the point fetches it or the block
    index has not moved since it was fetched, provided the body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds the window's block at every point, whether the point fetches it or the block
    index has not moved since it was fetched, provided the body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds the window's block at every point, whether the point fetches it or the block
    index has not moved since it was fetched, provided the body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds the window's block at every point, whether the point fetches it or the block
    index has not moved since it was fetched, provided the body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds the window's block at every point, whether the point fetches it or the block
    index has not moved since it was fetched, provided the body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- In a final state with every array of the region at what the proof data says and every other buffer as the region
    found it, every argument array is as launched. The three batch arrays are input windows' arrays, which the region
    only reads; the sixteen weights and biases are no window's array. -/
theorem args_kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩

/-- So a run to such final states is a run after which the arguments are unchanged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => args_kept m dats hA r h c) h

end Cert.KernelIdeal.CellFrame

end
-- ==== Proof.IdealBody.lean ====
/-
  The kernel body at one grid point. It loads the three batch blocks [256, 1024], the two stacked weight matrices
  [1024, 4096] and the bias row [1, 4096], computes the four gates' pre-activations as one [256, 4096] array, and stores
  the new hidden state and the new cell state, each a whole [256, 1024] block. (It also loads the two result buffers
  before storing into them and uses neither value.) So after the body each result buffer holds one whole-block store.
-/
import proofs.«154823_j9663676416791_2_alg».proof.Proof.Gen.KernelIdeal.Launch
import proofs.«154823_j9663676416791_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.CellFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each buffer whole -/

abbrev rBatch : Rect S256x1024 := Rect.unit (s := S256x1024) ![0, 0] S256x1024.size inb_S256x1024_S256x1024_0_0
abbrev rWeight : Rect S1024x4096 := Rect.unit (s := S1024x4096) ![0, 0] S1024x4096.size inb_S1024x4096_S1024x4096_0_0
abbrev rBias : Rect S1x4096 := Rect.unit (s := S1x4096) ![0, 0] S1x4096.size inb_S1x4096_S1x4096_0_0

/-! ## What the body leaves in the two result buffers -/

/-- The hidden-state buffer after the body, from the six input blocks: its one store. -/
def outHidden (x0 x1 x2 : Vec F S256x1024 .f32) (x3 x4 : Vec F S1024x4096 .bf16) (x5 : Vec F S1x4096 .f32) : Vec F S256x1024 .f32 :=
  View.canon [⟨rBatch, k0_pay3 (View.ld x0 rBatch) (View.ld x1 rBatch) (View.ld x2 rBatch) (View.ld x3 rWeight) (View.ld x4 rWeight) (View.ld x5 rBias)⟩]

/-- The cell-state buffer after the body, from the six input blocks: its one store. -/
def outCell (x0 x1 x2 : Vec F S256x1024 .f32) (x3 x4 : Vec F S1024x4096 .bf16) (x5 : Vec F S1x4096 .f32) : Vec F S256x1024 .f32 :=
  View.canon [⟨rBatch, k0_pay2 (View.ld x0 rBatch) (View.ld x1 rBatch) (View.ld x2 rBatch) (View.ld x3 rWeight) (View.ld x4 rWeight) (View.ld x5 rBias)⟩]

/-- One store of the whole block covers the block. -/
theorem coverBatch (p0 : Vec F S256x1024 .f32) (y : S256x1024.Idx) :
    ∃ pc ∈ ([⟨rBatch, p0⟩] : List (View.Piece (Elt F) S256x1024 .f32)), y ∈ pc.1.set :=
  View.cover_of_tiled [⟨rBatch, p0⟩] S256x1024.size (by rfl) y

/-! ## The body's triple -/

set_option maxHeartbeats 1000000 in
/-- On whole staging buffers, the six inputs' at contents x0 … x5 and the two results' at anything, the body runs to its
    end holding the inputs' as they were and the results' at `outHidden` and `outCell` of the inputs. -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S256x1024 .f32) (harg7 : arg7.IsWhole) (arg8 : Memref sig .tc .vmem S256x1024 .f32) (harg8 : arg8.IsWhole)
    (x0 x1 x2 : Vec F S256x1024 .f32) (x3 x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outHidden x0 x1 x2 x3 x4 x5) ∗ owns (c : Thread nD τ) arg8 fullShare (outCell x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverBatch _)
  iexists _; isplitr
  swap; · iexact H7
  ipureintro
  exact View.read_writes_eq_canon _ _ _ (coverBatch _)

end Cert.KernelIdeal.CellFrame

end
-- ==== Proof.IdealRun.lean ====
/-
  The region's run. At every grid point each input window's staging buffer holds its block of the array the region found,
  the body leaves it there, and leaves in the two result buffers the hidden-state block and the cell-state block computed
  from the six input blocks; the pipeline writes those back. So the program terminates without a fault, every result
  array ends as the blocks written back, and every other array ends as the region found it: in particular every argument
  ends as launched.
-/
import proofs.«154823_j9663676416791_2_alg».proof.Proof.IdealEntry
import proofs.«154823_j9663676416791_2_alg».proof.Proof.IdealBody

set_option maxRecDepth 16384

noncomputable section

namespace Cert.KernelIdeal.CellFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data of the pipeline -/

/-- On core c: the arrays as the region finds them; after the body at point t each input's buffer at its block and the
    two results' at the body's stores over the input blocks; nothing else held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outHidden (iblk m c 0 t) (iblk m c 1 t) (iblk m c 2 t) (iblk m c 3 t) (iblk m c 4 t) (iblk m c 5 t)
    | ⟨7, _⟩ => outCell (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outHidden (iblk m c 0 t) (iblk m c 1 t) (iblk m c 2 t) (iblk m c 3 t) (iblk m c 4 t) (iblk m c 5 t) := by dsimp only [dats]
theorem after7 (c : Dev nD) (t : Fin cfg0.N) : (dats m 0 c).after 7 t = outCell (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation at a generic point -/

/-- What the body is called with at point t, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the input buffers hold their blocks, so the body's triple applies; what else is held passes
    through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates without a fault, every
    array of the region at what the proof data computes and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its nineteen argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.KernelIdeal.CellFrame

end
-- ==== Proof.LibPlainDot.lean ====
/-
  A plain matrix product read at an entry. For the dimension numbers of an [M, K] by [K, N] product (no batch axis,
  the left operand contracted on its last axis and the right on its first) the entry (p, q) of the product is
  ∑ₖ l(p, k) · r(k, q) over k : Fin K — for a tpu.matmul into the zero accumulator and for the host's dot_general alike,
  at the ideal values. General in the three extents and in the operands' formats; a printed record of these dimension
  numbers is DotDims.plain M K N up to the proof it carries, so it is passed with the equation (by rfl).
-/
import Idealize.ShloMosaic.PureOps.Ideal.Laws
import Idealize.ShloMosaic.Lib.ValueIdx

namespace Idealize.ShloMosaic.ValueIdx

/-- The left operand's row is the output's row, whatever the contraction index. -/
theorem plain_lhs_row {M K N : ℕ} (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column, whatever the contraction index. -/
theorem plain_rhs_col {M K N : ℕ} (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The left operand's index at output (p, q) and contraction coordinate k is (p, k). -/
theorem plain_lhsIdx {M K N : ℕ} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => exact plain_lhs_row (ix2 p q) _
  | ⟨1, _⟩ => exact ((DotDims.plain M K N).lhsIdx_val_of_single (cl := (1 : Fin 2)) rfl (ix2 p q) _).trans hk

/-- The right operand's index at output (p, q) and contraction coordinate k is (k, q). -/
theorem plain_rhsIdx {M K N : ℕ} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single (cr := (0 : Fin 2)) rfl (ix2 p q) _).trans hk
  | ⟨1, _⟩ => exact plain_rhs_col (ix2 p q) _

/-- The product's sum over the contraction index, re-indexed by the contracted coordinate. -/
theorem sum_plain {M K N : ℕ} (l : (⟨2, ![M, K]⟩ : Shape).Idx → EReal) (r : (⟨2, ![K, N]⟩ : Shape).Idx → EReal)
    (p : Fin M) (q : Fin N) :
    ∑ k : (DotDims.plain M K N).contr.Idx, l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  exact Finset.sum_congr rfl fun k _ => by rw [plain_lhsIdx, plain_rhsIdx]

/-- A tpu.matmul of these dimension numbers into the zero accumulator, at entry (p, q). -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  exact (Ideal.matmul_constant_zero_apply _ prec lhs rhs (ix2 p q)).trans (sum_plain lhs rhs p q)

/-- The host's dot_general of these dimension numbers, at entry (p, q). -/
theorem dotGeneral_plain_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  exact (Ideal.dotGeneral_apply _ prec sched lhs rhs (ix2 p q)).trans (sum_plain lhs rhs p q)

end Idealize.ShloMosaic.ValueIdx
-- ==== Proof.FusedLayout.lean ====
/-
  The fused operands read at an entry. Four [1024, 1024] weights stacked along their rows into [4096, 1024] and then
  transposed into [1024, 4096]: the entry (k, g · 1024 + q) is W_g(q, k). Four [1024] vectors laid end to end into [4096]
  and read as one row [1, 4096]: the entry (0, g · 1024 + q) is b_g(q).
-/
import Idealize.ShloMosaic.Lib.ValueLayout
import Idealize.ShloMosaic.Lib.Pipeline.Value

noncomputable section

namespace Cert.KernelIdeal.CellValue

open Idealize.ShloMosaic Idealize.ShloMosaic.ValueIdx

/-- Column q of gate number g among the 4096 fused columns. -/
def col (g : Fin 4) (q : Fin 1024) : Fin 4096 := ⟨g.val * 1024 + q.val, by have := g.isLt; have := q.isLt; omega⟩

theorem col_val (g : Fin 4) (q : Fin 1024) : (col g q).val = g.val * 1024 + q.val := rfl

/-- Four square matrices stacked by rows, at row g · 1024 + q and column k: the matrix number g at (q, k). -/
theorem stacked_at {α : Type} (W0 W1 W2 W3 : (⟨2, ![1024, 1024]⟩ : Shape).Idx → α)
    (hc : Shape.Concatenates (([⟨⟨2, ![1024, 1024]⟩, W0⟩, ⟨⟨2, ![1024, 1024]⟩, W1⟩, ⟨⟨2, ![1024, 1024]⟩, W2⟩, ⟨⟨2, ![1024, 1024]⟩, W3⟩] :
      List ((s : Shape) × (s.Idx → α))).map (·.1)) ⟨2, ![4096, 1024]⟩ 0)
    (g : Fin 4) (q k : Fin 1024) :
    concatenate ⟨2, ![4096, 1024]⟩ 0 [⟨⟨2, ![1024, 1024]⟩, W0⟩, ⟨⟨2, ![1024, 1024]⟩, W1⟩, ⟨⟨2, ![1024, 1024]⟩, W2⟩, ⟨⟨2, ![1024, 1024]⟩, W3⟩] hc (ix2 (col g q) k)
      = (![W0, W1, W2, W3] g) (ix2 q k) := by
  have hi : ∀ b : Fin (⟨2, ![1024, 1024]⟩ : Shape).rank, b.cast (rfl : (⟨2, ![1024, 1024]⟩ : Shape).rank = (⟨2, ![4096, 1024]⟩ : Shape).rank) ≠ (0 : Fin 2) →
      ((ix2 q k : (⟨2, ![1024, 1024]⟩ : Shape).Idx) b).val = ((ix2 (col g q) k : (⟨2, ![4096, 1024]⟩ : Shape).Idx) (b.cast rfl)).val := by
    intro b hb
    match b with
    | ⟨0, _⟩ => exact absurd rfl hb
    | ⟨1, _⟩ => rfl
  fin_cases g
  · exact concatenate_apply_piece 0 _ hc _ 0 (by simp) _ W0 rfl rfl 0 rfl (ix2 q k) hi (by show 0 + q.val = 0 * 1024 + q.val; omega)
  · exact concatenate_apply_piece 0 _ hc _ 1 (by simp) _ W1 rfl rfl 1024 rfl (ix2 q k) hi (by show 1024 + q.val = 1 * 1024 + q.val; omega)
  · exact concatenate_apply_piece 0 _ hc _ 2 (by simp) _ W2 rfl rfl 2048 rfl (ix2 q k) hi (by show 2048 + q.val = 2 * 1024 + q.val; omega)
  · exact concatenate_apply_piece 0 _ hc _ 3 (by simp) _ W3 rfl rfl 3072 rfl (ix2 q k) hi (by show 3072 + q.val = 3 * 1024 + q.val; omega)

/-- The stack transposed, at row k and column g · 1024 + q: the matrix number g at (q, k). -/
theorem stacked_transposed_at {α : Type} (W0 W1 W2 W3 : (⟨2, ![1024, 1024]⟩ : Shape).Idx → α)
    (hc : Shape.Concatenates (([⟨⟨2, ![1024, 1024]⟩, W0⟩, ⟨⟨2, ![1024, 1024]⟩, W1⟩, ⟨⟨2, ![1024, 1024]⟩, W2⟩, ⟨⟨2, ![1024, 1024]⟩, W3⟩] :
      List ((s : Shape) × (s.Idx → α))).map (·.1)) ⟨2, ![4096, 1024]⟩ 0)
    (ht : (⟨2, ![4096, 1024]⟩ : Shape).Transposes [1, 0] ⟨2, ![1024, 4096]⟩) (g : Fin 4) (k q : Fin 1024) :
    transpose ⟨2, ![1024, 4096]⟩ [1, 0]
        (concatenate ⟨2, ![4096, 1024]⟩ 0 [⟨⟨2, ![1024, 1024]⟩, W0⟩, ⟨⟨2, ![1024, 1024]⟩, W1⟩, ⟨⟨2, ![1024, 1024]⟩, W2⟩, ⟨⟨2, ![1024, 1024]⟩, W3⟩] hc)
        ht (ix2 k (col g q))
      = (![W0, W1, W2, W3] g) (ix2 q k) :=
  (transpose_ix2_apply _ ht k (col g q)).trans (stacked_at W0 W1 W2 W3 hc g q k)

/-- Four vectors laid end to end, at position g · 1024 + q: the vector number g at q. -/
theorem joined_at {α : Type} (b0 b1 b2 b3 : (⟨1, ![1024]⟩ : Shape).Idx → α)
    (hc : Shape.Concatenates (([⟨⟨1, ![1024]⟩, b0⟩, ⟨⟨1, ![1024]⟩, b1⟩, ⟨⟨1, ![1024]⟩, b2⟩, ⟨⟨1, ![1024]⟩, b3⟩] :
      List ((s : Shape) × (s.Idx → α))).map (·.1)) ⟨1, ![4096]⟩ 0)
    (g : Fin 4) (q : Fin 1024) :
    concatenate ⟨1, ![4096]⟩ 0 [⟨⟨1, ![1024]⟩, b0⟩, ⟨⟨1, ![1024]⟩, b1⟩, ⟨⟨1, ![1024]⟩, b2⟩, ⟨⟨1, ![1024]⟩, b3⟩] hc (ix1 (col g q))
      = (![b0, b1, b2, b3] g) (ix1 q) := by
  have hi : ∀ b : Fin (⟨1, ![1024]⟩ : Shape).rank, b.cast (rfl : (⟨1, ![1024]⟩ : Shape).rank = (⟨1, ![4096]⟩ : Shape).rank) ≠ (0 : Fin 1) →
      ((ix1 q : (⟨1, ![1024]⟩ : Shape).Idx) b).val = ((ix1 (col g q) : (⟨1, ![4096]⟩ : Shape).Idx) (b.cast rfl)).val := by
    intro b hb
    match b with
    | ⟨0, _⟩ => exact absurd rfl hb
  fin_cases g
  · exact concatenate_apply_piece 0 _ hc _ 0 (by simp) _ b0 rfl rfl 0 rfl (ix1 q) hi (by show 0 + q.val = 0 * 1024 + q.val; omega)
  · exact concatenate_apply_piece 0 _ hc _ 1 (by simp) _ b1 rfl rfl 1024 rfl (ix1 q) hi (by show 1024 + q.val = 1 * 1024 + q.val; omega)
  · exact concatenate_apply_piece 0 _ hc _ 2 (by simp) _ b2 rfl rfl 2048 rfl (ix1 q) hi (by show 2048 + q.val = 2 * 1024 + q.val; omega)
  · exact concatenate_apply_piece 0 _ hc _ 3 (by simp) _ b3 rfl rfl 3072 rfl (ix1 q) hi (by show 3072 + q.val = 3 * 1024 + q.val; omega)

/-- The joined vector read as one row, at (0, g · 1024 + q): the vector number g at q. -/
theorem joined_row_at {α : Type} (b0 b1 b2 b3 : (⟨1, ![1024]⟩ : Shape).Idx → α)
    (hc : Shape.Concatenates (([⟨⟨1, ![1024]⟩, b0⟩, ⟨⟨1, ![1024]⟩, b1⟩, ⟨⟨1, ![1024]⟩, b2⟩, ⟨⟨1, ![1024]⟩, b3⟩] :
      List ((s : Shape) × (s.Idx → α))).map (·.1)) ⟨1, ![4096]⟩ 0)
    (hs : (⟨1, ![4096]⟩ : Shape).ShapeCasts ⟨2, ![1, 4096]⟩) (g : Fin 4) (q : Fin 1024) :
    shapeCast ⟨2, ![1, 4096]⟩
        (concatenate ⟨1, ![4096]⟩ 0 [⟨⟨1, ![1024]⟩, b0⟩, ⟨⟨1, ![1024]⟩, b1⟩, ⟨⟨1, ![1024]⟩, b2⟩, ⟨⟨1, ![1024]⟩, b3⟩] hc)
        hs (ix2 (0 : Fin 1) (col g q))
      = (![b0, b1, b2, b3] g) (ix1 q) :=
  (shapeCast_a_1a_apply _ hs 0 (col g q)).trans (joined_at b0 b1 b2 b3 hc g q)

end Cert.KernelIdeal.CellValue

end
-- ==== Proof.CellSpec.lean ====
/-
  The LSTM cell, entry by entry, on the extended reals.

  For a batch row p and a hidden unit q, a gate g ∈ {i, o, f, c} has the pre-activation

      a_g(p, q) = ((∑ₖ x(p, k) · W_g(q, k) + bW_g(q)) + ∑ₖ h(p, k) · U_g(q, k)) + bU_g(q)

  (two linear layers, each y ↦ y · Wᵀ + b, added). The new cell state and the new hidden state are

      C(p, q) = σ(a_f) · c(p, q) + σ(a_i) · a_c,        H(p, q) = σ(a_o) · tanh C(p, q),

  σ the logistic function 1 / (1 + e⁻ˣ) with its limits 0 and 1 at the infinities. Everything is stated over the
  extended reals; the two groupings of a gate's four summands that occur below are equal by the commutativity and
  associativity of the extended reals' addition alone, so no entry is assumed finite.
-/
import Idealize.ShloMosaic.PureOps.Ideal
import Idealize.ShloMosaic.PureOps.Ideal.Laws
import Idealize.ShloMosaic.Lib.ValueIdx

noncomputable section

namespace Cert.Cell

open Idealize.ShloMosaic Idealize.ShloMosaic.ValueIdx

/-- A batch of rows of 1024 features. -/
abbrev Rows : Type := (⟨2, ![16384, 1024]⟩ : Shape).Idx → EReal
/-- A layer's weight, one row per output unit. -/
abbrev Weight : Type := (⟨2, ![1024, 1024]⟩ : Shape).Idx → EReal
/-- A layer's bias. -/
abbrev Bias : Type := (⟨1, ![1024]⟩ : Shape).Idx → EReal

/-- The row p of x against the row q of W: the entry (p, q) of x · Wᵀ. -/
def lin (x : Rows) (W : Weight) (p : Fin 16384) (q : Fin 1024) : EReal :=
  ∑ k : Fin 1024, x (ix2 p k) * W (ix2 q k)

/-- A gate's pre-activation, the two layers one after the other: ((x·Wᵀ + bW) + h·Uᵀ) + bU. -/
def gate (x h : Rows) (W U : Weight) (bW bU : Bias) (p : Fin 16384) (q : Fin 1024) : EReal :=
  ((lin x W p q + bW (ix1 q)) + lin h U p q) + bU (ix1 q)

/-- The same with the two products added first and the two biases added first: (x·Wᵀ + h·Uᵀ) + (bW + bU). -/
def gateFused (x h : Rows) (W U : Weight) (bW bU : Bias) (p : Fin 16384) (q : Fin 1024) : EReal :=
  (lin x W p q + lin h U p q) + (bW (ix1 q) + bU (ix1 q))

/-- The two groupings agree on the extended reals: addition there is commutative and associative. -/
theorem gateFused_eq_gate (x h : Rows) (W U : Weight) (bW bU : Bias) (p : Fin 16384) (q : Fin 1024) :
    gateFused x h W U bW bU p q = gate x h W U bW bU p q := by
  unfold gateFused gate
  rw [add_add_add_comm, add_assoc (lin x W p q + bW (ix1 q))]

/-- The word 0x3F800000 is the number one. -/
theorem one_f32 : Ideal.ofBits .f32 0x3F800000#32 = 1 := by
  simp [Ideal.ofBits, Ideal.ieee, -EReal.coe_mul]; norm_num

/-- The new cell state at (p, q). -/
def cellAt (x h c : Rows) (Wi Wo Wf Wc Ui Uo Uf Uc : Weight) (bWi bWo bWf bWc bUi bUo bUf bUc : Bias)
    (p : Fin 16384) (q : Fin 1024) : EReal :=
  Ideal.logistic (gate x h Wf Uf bWf bUf p q) * c (ix2 p q)
    + Ideal.logistic (gate x h Wi Ui bWi bUi p q) * gate x h Wc Uc bWc bUc p q

/-- The new hidden state at (p, q). -/
def hiddenAt (x h c : Rows) (Wi Wo Wf Wc Ui Uo Uf Uc : Weight) (bWi bWo bWf bWc bUi bUo bUf bUc : Bias)
    (p : Fin 16384) (q : Fin 1024) : EReal :=
  Ideal.logistic (gate x h Wo Uo bWo bUo p q)
    * Ideal.tanh (cellAt x h c Wi Wo Wf Wc Ui Uo Uf Uc bWi bWo bWf bWc bUi bUo bUf bUc p q)

/-- The new cell state, the whole array. -/
def cell (x h c : Rows) (Wi Wo Wf Wc Ui Uo Uf Uc : Weight) (bWi bWo bWf bWc bUi bUo bUf bUc : Bias) : Rows :=
  fun i => cellAt x h c Wi Wo Wf Wc Ui Uo Uf Uc bWi bWo bWf bWc bUi bUo bUf bUc (i 0) (i 1)

/-- The new hidden state, the whole array. -/
def hidden (x h c : Rows) (Wi Wo Wf Wc Ui Uo Uf Uc : Weight) (bWi bWo bWf bWc bUi bUo bUf bUc : Bias) : Rows :=
  fun i => hiddenAt x h c Wi Wo Wf Wc Ui Uo Uf Uc bWi bWo bWf bWc bUi bUo bUf bUc (i 0) (i 1)

end Cert.Cell

end
-- ==== Proof.CellBlock.lean ====
/-
  The kernel body's arithmetic at one entry of a block. From the blocks x, h, c : [256, 1024], the stacked weights
  A, B : [1024, 4096] and the bias row b : [1, 4096] the body forms the fused pre-activation

      z(r, n) = (∑ₖ x(r, k) · A(k, n) + ∑ₖ h(r, k) · B(k, n)) + b(0, n)          (r < 256, n < 4096)

  — the two matrix products start from a zero accumulator, and narrowing a float's format is the identity on the
  extended reals — and cuts it into the four gates' columns: gate number g ∈ {0, 1, 2, 3} (input, output, forget,
  candidate) owns the columns g · 1024 + q. Then

      C(r, q) = σ(z(r, 2048 + q)) · c(r, q) + σ(z(r, q)) · z(r, 3072 + q),        H(r, q) = σ(z(r, 1024 + q)) · tanh C(r, q).
-/
import proofs.«154823_j9663676416791_2_alg».proof.Proof.Gen.KernelIdeal.Skeleton
import proofs.«154823_j9663676416791_2_alg».proof.Proof.LibPlainDot
import proofs.«154823_j9663676416791_2_alg».proof.Proof.FusedLayout
import proofs.«154823_j9663676416791_2_alg».proof.Proof.CellSpec
import Idealize.ShloMosaic.Lib.ValueLayout
import Idealize.ShloMosaic.Lib.Pipeline.Value

noncomputable section

namespace Cert.KernelIdeal.CellValue

open Cert.KernelIdeal Cert.KernelIdeal.Gen Idealize.ShloMosaic Idealize.ShloMosaic.ValueIdx

/-- The fused pre-activation at (r, n): the two products' entries and the bias row's. -/
theorem fused_at (v0 v2 : Vec Ideal S256x1024 .f32) (v5 v8 : Vec Ideal S1024x4096 .bf16) (v12 : Vec Ideal S1x4096 .f32)
    (r : Fin 256) (n : Fin 4096) :
    k0_pay1 v0 v2 v5 v8 v12 (ix2 r n)
      = ((∑ k : Fin 1024, v0 (ix2 r k) * v5 (ix2 k n)) + ∑ k : Fin 1024, v2 (ix2 r k) * v8 (ix2 k n)) + v12 (ix2 (0 : Fin 1) n) := by
  unfold k0_pay1
  refine congrArg₂ (· + ·) (congrArg₂ (· + ·) ?_ ?_) ?_
  · refine (matmul_plain_zero_apply dot_S256x1024_S1024x4096_S256x4096_1_0_0_1_n_n rfl none _ _ r n).trans ?_
    refine Finset.sum_congr rfl fun k _ => ?_
    rw [shapeCast_self]; rfl
  · refine (matmul_plain_zero_apply dot_S256x1024_S1024x4096_S256x4096_1_0_0_1_n_n rfl none _ _ r n).trans ?_
    refine Finset.sum_congr rfl fun k _ => ?_
    rw [shapeCast_self]; rfl
  · refine (broadcastTo_1b_ab_apply _ _ r n).trans ?_
    rw [shapeCast_self]

/-- The cell-state payload at (r, q). -/
theorem cell_at (v0 v2 v4 : Vec Ideal S256x1024 .f32) (v5 v8 : Vec Ideal S1024x4096 .bf16) (v12 : Vec Ideal S1x4096 .f32)
    (r : Fin 256) (q : Fin 1024) :
    k0_pay2 v0 v2 v4 v5 v8 v12 (ix2 r q)
      = Ideal.logistic (k0_pay1 v0 v2 v5 v8 v12 (ix2 r (col 2 q))) * v4 (ix2 r q)
        + Ideal.logistic (k0_pay1 v0 v2 v5 v8 v12 (ix2 r (col 0 q))) * k0_pay1 v0 v2 v5 v8 v12 (ix2 r (col 3 q)) := by
  unfold k0_pay2
  refine congrArg₂ (· + ·) (congrArg₂ (· * ·) (congrArg Ideal.logistic ?_) rfl) (congrArg₂ (· * ·) (congrArg Ideal.logistic ?_) ?_)
  · exact slice2_axis1_apply 2048 _ _ r q (col 2 q) rfl
  · exact slice2_axis1_apply 0 _ _ r q (col 0 q) (by rw [col_val]; simp)
  · exact slice2_axis1_apply 3072 _ _ r q (col 3 q) rfl

/-- The hidden-state payload at (r, q). -/
theorem hidden_at (v0 v2 v4 : Vec Ideal S256x1024 .f32) (v5 v8 : Vec Ideal S1024x4096 .bf16) (v12 : Vec Ideal S1x4096 .f32)
    (r : Fin 256) (q : Fin 1024) :
    k0_pay3 v0 v2 v4 v5 v8 v12 (ix2 r q)
      = Ideal.logistic (k0_pay1 v0 v2 v5 v8 v12 (ix2 r (col 1 q))) * Ideal.tanh (k0_pay2 v0 v2 v4 v5 v8 v12 (ix2 r q)) := by
  unfold k0_pay3
  refine congrArg₂ (· * ·) (congrArg Ideal.logistic ?_) rfl
  exact slice2_axis1_apply 1024 _ _ r q (col 1 q) rfl

/-! ## Against the LSTM cell's specification

  When row r of the three batch blocks is row p of the arrays x, h, c, the stacked weights hold gate g's input weight
  and hidden weight transposed in the columns g · 1024 + q, and the bias row holds the sum of gate g's two biases there,
  the fused pre-activation at (r, g · 1024 + q) is gate g's pre-activation at (p, q) with the products added first and
  the biases added first — which is the two layers added one after the other, addition on the extended reals being
  commutative and associative. -/

section Spec

variable (v0 v2 v4 : Vec Ideal S256x1024 .f32) (v5 v8 : Vec Ideal S1024x4096 .bf16) (v12 : Vec Ideal S1x4096 .f32)
variable (x h c : Cert.Cell.Rows) (Wi Wo Wf Wc Ui Uo Uf Uc : Cert.Cell.Weight) (bWi bWo bWf bWc bUi bUo bUf bUc : Cert.Cell.Bias)
variable (p : Fin 16384) (r : Fin 256)

/-- The fused pre-activation in gate g's columns is gate g's pre-activation. -/
theorem fused_gate
    (hx : ∀ k : Fin 1024, v0 (ix2 r k) = x (ix2 p k)) (hh : ∀ k : Fin 1024, v2 (ix2 r k) = h (ix2 p k))
    (hW : ∀ (g : Fin 4) (k q : Fin 1024), v5 (ix2 k (col g q)) = (![Wi, Wo, Wf, Wc] g) (ix2 q k))
    (hU : ∀ (g : Fin 4) (k q : Fin 1024), v8 (ix2 k (col g q)) = (![Ui, Uo, Uf, Uc] g) (ix2 q k))
    (hb : ∀ (g : Fin 4) (q : Fin 1024), v12 (ix2 (0 : Fin 1) (col g q)) = (![bWi, bWo, bWf, bWc] g) (ix1 q) + (![bUi, bUo, bUf, bUc] g) (ix1 q))
    (g : Fin 4) (q : Fin 1024) :
    k0_pay1 v0 v2 v5 v8 v12 (ix2 r (col g q))
      = Cert.Cell.gate x h (![Wi, Wo, Wf, Wc] g) (![Ui, Uo, Uf, Uc] g) (![bWi, bWo, bWf, bWc] g) (![bUi, bUo, bUf, bUc] g) p q := by
  rw [fused_at, ← Cert.Cell.gateFused_eq_gate]
  unfold Cert.Cell.gateFused Cert.Cell.lin
  refine congrArg₂ (· + ·) (congrArg₂ (· + ·) (Finset.sum_congr rfl fun k _ => ?_) (Finset.sum_congr rfl fun k _ => ?_)) (hb g q)
  · rw [hx k, hW g k q]
  · rw [hh k, hU g k q]

/-- The cell-state payload at (r, q) is the new cell state at (p, q). -/
theorem cell_entry
    (hx : ∀ k : Fin 1024, v0 (ix2 r k) = x (ix2 p k)) (hh : ∀ k : Fin 1024, v2 (ix2 r k) = h (ix2 p k))
    (hc : ∀ q : Fin 1024, v4 (ix2 r q) = c (ix2 p q))
    (hW : ∀ (g : Fin 4) (k q : Fin 1024), v5 (ix2 k (col g q)) = (![Wi, Wo, Wf, Wc] g) (ix2 q k))
    (hU : ∀ (g : Fin 4) (k q : Fin 1024), v8 (ix2 k (col g q)) = (![Ui, Uo, Uf, Uc] g) (ix2 q k))
    (hb : ∀ (g : Fin 4) (q : Fin 1024), v12 (ix2 (0 : Fin 1) (col g q)) = (![bWi, bWo, bWf, bWc] g) (ix1 q) + (![bUi, bUo, bUf, bUc] g) (ix1 q))
    (q : Fin 1024) :
    k0_pay2 v0 v2 v4 v5 v8 v12 (ix2 r q)
      = Cert.Cell.cellAt x h c Wi Wo Wf Wc Ui Uo Uf Uc bWi bWo bWf bWc bUi bUo bUf bUc p q := by
  rw [cell_at, hc q,
    fused_gate v0 v2 v5 v8 v12 x h Wi Wo Wf Wc Ui Uo Uf Uc bWi bWo bWf bWc bUi bUo bUf bUc p r hx hh hW hU hb 2 q,
    fused_gate v0 v2 v5 v8 v12 x h Wi Wo Wf Wc Ui Uo Uf Uc bWi bWo bWf bWc bUi bUo bUf bUc p r hx hh hW hU hb 0 q,
    fused_gate v0 v2 v5 v8 v12 x h Wi Wo Wf Wc Ui Uo Uf Uc bWi bWo bWf bWc bUi bUo bUf bUc p r hx hh hW hU hb 3 q]
  rfl

/-- The hidden-state payload at (r, q) is the new hidden state at (p, q). -/
theorem hidden_entry
    (hx : ∀ k : Fin 1024, v0 (ix2 r k) = x (ix2 p k)) (hh : ∀ k : Fin 1024, v2 (ix2 r k) = h (ix2 p k))
    (hc : ∀ q : Fin 1024, v4 (ix2 r q) = c (ix2 p q))
    (hW : ∀ (g : Fin 4) (k q : Fin 1024), v5 (ix2 k (col g q)) = (![Wi, Wo, Wf, Wc] g) (ix2 q k))
    (hU : ∀ (g : Fin 4) (k q : Fin 1024), v8 (ix2 k (col g q)) = (![Ui, Uo, Uf, Uc] g) (ix2 q k))
    (hb : ∀ (g : Fin 4) (q : Fin 1024), v12 (ix2 (0 : Fin 1) (col g q)) = (![bWi, bWo, bWf, bWc] g) (ix1 q) + (![bUi, bUo, bUf, bUc] g) (ix1 q))
    (q : Fin 1024) :
    k0_pay3 v0 v2 v4 v5 v8 v12 (ix2 r q)
      = Cert.Cell.hiddenAt x h c Wi Wo Wf Wc Ui Uo Uf Uc bWi bWo bWf bWc bUi bUo bUf bUc p q := by
  rw [hidden_at,
    cell_entry v0 v2 v4 v5 v8 v12 x h c Wi Wo Wf Wc Ui Uo Uf Uc bWi bWo bWf bWc bUi bUo bUf bUc p r hx hh hc hW hU hb q,
    fused_gate v0 v2 v5 v8 v12 x h Wi Wo Wf Wc Ui Uo Uf Uc bWi bWo bWf bWc bUi bUo bUf bUc p r hx hh hW hU hb 1 q]
  rfl

end Spec

end Cert.KernelIdeal.CellValue

end
-- ==== Proof.LibNary3.lean ====
/-
  A host operation over a LITERAL family of three references (a `stablehlo.concatenate` of three operands, printed
  `nary ![a, b, c] …`), read back with each operand's contents AT ITS OWN REFERENCE, so that a rewriting pass over a
  stretch of host operations goes on into the operands (under the binder of the general `nary` lemma the reference
  `![a, b, c] k` is no literal and no result lemma applies to it). The three-operand counterpart of the library's
  four-operand lemma, with the one-pass tactic over the library's result lemmas and this one, the fold of a stretch
  of host operations over a concatenation of two stretches, and a stretch split at such an operation.
-/
import Idealize.ShloMosaic.Lib.StableHlo.Run

namespace Idealize.ShloMosaic.StableHlo

variable {nD : Nat} {τ : Topo} {sig : RefSig} {Val : EltTy → Type}
variable {x a b y : Ref sig .tc}

/-- The result of a three-operand host operation at its own result buffer: its function of the three operands'
    contents, each read at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, restated for `simp` (the result reference un-indexed, as the library's primed lemmas are). -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- A stretch of host operations read back at one reference as ONE `simp` pass: the library's pass with the
    three- and four-operand literal-family lemmas in place of the general `nary` one. -/
macro "host_results_simp" : tactic =>
  `(tactic| (simp (disch := decide) only [after_cons, after_nil,
      nullary_result', unary_result', binary_result', ternary_result', quaternary_result', reshape_result', nary4_result', nary3_result',
      unaryIndexed_result', binaryIndexed_result',
      nullary_result_ne', unary_result_ne', binary_result_ne', ternary_result_ne', quaternary_result_ne', reshape_result_ne',
      nary_result_ne', unaryIndexed_result_ne', binaryIndexed_result_ne']))

/-- A typed reference's two casts, there and back, are the identity (whatever the reference). -/
theorem ofBuf_toBuf {T : BufTy} (x : TRef sig T) (v : T.Contents Val) : x.ofBuf (x.toBuf v) = v := by
  unfold TRef.toBuf TRef.ofBuf; rw [cast_cast]; exact cast_eq _ _

/-- The fold of a stretch of host operations over a concatenation is the fold of the second part over the fold of the
    first. -/
theorem after_append (A B : List (HloOp τ sig Val)) (V : Valuation τ sig Val) : after (A ++ B) V = after B (after A V) := by
  induction A generalizing V with
  | nil => rfl
  | cons op A ih => exact ih (op.result V)

/-- A stretch that ends in a three-operand operation (and operations after it that do not write its result): the
    result is the operation's function of the operands as the stretch BEFORE it leaves them. -/
theorem after_pre_nary3 (pre tail : List (HloOp τ sig Val))
    (f : ((k : Fin 3) → ((![x, a, b] : Fin 3 → Ref sig .tc) k).ty.Contents Val) → y.ty.Contents Val) (hxs hy)
    (V : Valuation τ sig Val) (htail : ∀ op ∈ tail, (Proc.devRef .tc y : DevRef τ sig) ∉ op.writes) :
    after (pre ++ nary (τ := τ) ![x, a, b] y f hxs hy :: tail) V (Proc.devRef .tc y)
      = f (Fin.cons (after pre V (Proc.devRef .tc x)) (Fin.cons (after pre V (Proc.devRef .tc a)) (Fin.cons (after pre V (Proc.devRef .tc b)) (fun i => i.elim0)))) := by
  rw [after_append, after_cons, after_of_forall_not_mem tail _ htail]
  exact nary3_result f hxs hy _

/-- The same for a four-operand operation. -/
theorem after_pre_nary4 {e : Ref sig .tc} (pre tail : List (HloOp τ sig Val))
    (f : ((k : Fin 4) → ((![x, a, b, e] : Fin 4 → Ref sig .tc) k).ty.Contents Val) → y.ty.Contents Val) (hxs hy)
    (V : Valuation τ sig Val) (htail : ∀ op ∈ tail, (Proc.devRef .tc y : DevRef τ sig) ∉ op.writes) :
    after (pre ++ nary (τ := τ) ![x, a, b, e] y f hxs hy :: tail) V (Proc.devRef .tc y)
      = f (Fin.cons (after pre V (Proc.devRef .tc x)) (Fin.cons (after pre V (Proc.devRef .tc a)) (Fin.cons (after pre V (Proc.devRef .tc b)) (Fin.cons (after pre V (Proc.devRef .tc e)) (fun i => i.elim0))))) := by
  rw [after_append, after_cons, after_of_forall_not_mem tail _ htail]
  exact nary4_result f hxs hy _

/-- A property of every entry of two lists holds of every entry of their concatenation. -/
theorem forall_append {α : Type} {P : α → Prop} {A B : List α} (ha : A.Forall P) (hb : B.Forall P) : (A ++ B).Forall P :=
  List.forall_iff_forall_mem.mpr fun x hx =>
    (List.mem_append.mp hx).elim (List.forall_iff_forall_mem.mp ha x) (List.forall_iff_forall_mem.mp hb x)

end Idealize.ShloMosaic.StableHlo
-- ==== Proof.FusedOperands.lean ====
/-
  The three arrays the host operations prepare, as the region finds them, read at an entry: the stacked input-to-hidden
  weights at (k, g · 1024 + q) are W_g(q, k), the stacked hidden-to-hidden weights there are U_g(q, k), and the bias row at
  (0, g · 1024 + q) is bW_g(q) + bU_g(q) — for the gates g = 0, 1, 2, 3 in the order input, output, forget, candidate.
  Narrowing the stacked weights' format is the identity on the extended reals.
-/
import proofs.«154823_j9663676416791_2_alg».proof.Proof.IdealEntry
import proofs.«154823_j9663676416791_2_alg».proof.Proof.FusedLayout
import proofs.«154823_j9663676416791_2_alg».proof.Proof.LibNary3
import proofs.«154823_j9663676416791_2_alg».proof.Proof.CellSpec
import Idealize.ShloMosaic.Lib.StableHlo.Run

noncomputable section

namespace Cert.KernelIdeal.CellValue

open Cert.KernelIdeal Cert.KernelIdeal.Gen Cert.KernelIdeal.CellFrame
open Idealize.ShloMosaic Idealize.ShloMosaic.TcCoe Idealize.ShloMosaic.ValueIdx Idealize.ShloMosaic.StableHlo Idealize.SL.Sem

variable (m : (ℓ : Loc nD τ sig) → Buf (Elt Ideal) ℓ)

/-- The stacked input-to-hidden weights as the region finds them: the four weights stacked by rows, transposed. -/
theorem stackedW_eq (c : Dev nD) :
    (V m c main_v3 : S1024x4096.Idx → EReal)
      = truncf (F := Ideal) .bf16 (transpose S1024x4096 [1, 0]
          (concatenate (α := Ideal .f32) S4096x1024 0 [⟨S1024x1024, m ((c.tc : Thread nD τ).loc main_arg3)⟩, ⟨S1024x1024, m ((c.tc : Thread nD τ).loc main_arg5)⟩, ⟨S1024x1024, m ((c.tc : Thread nD τ).loc main_arg7)⟩, ⟨S1024x1024, m ((c.tc : Thread nD τ).loc main_arg9)⟩]
            concatenates_S1024x1024_S1024x1024_S1024x1024_S1024x1024_S4096x1024_d0)
          transposes_S4096x1024_S1024x4096_1_0) bitsLt_bf16_f32 := by
  dsimp only [V]
  simp only [hostOps0, List.flatten_cons, List.flatten_nil, List.append_nil]
  host_results_simp
  rfl

/-- The stacked hidden-to-hidden weights as the region finds them. -/
theorem stackedU_eq (c : Dev nD) :
    (V m c main_v5 : S1024x4096.Idx → EReal)
      = truncf (F := Ideal) .bf16 (transpose S1024x4096 [1, 0]
          (concatenate (α := Ideal .f32) S4096x1024 0 [⟨S1024x1024, m ((c.tc : Thread nD τ).loc main_arg11)⟩, ⟨S1024x1024, m ((c.tc : Thread nD τ).loc main_arg13)⟩, ⟨S1024x1024, m ((c.tc : Thread nD τ).loc main_arg15)⟩, ⟨S1024x1024, m ((c.tc : Thread nD τ).loc main_arg17)⟩]
            concatenates_S1024x1024_S1024x1024_S1024x1024_S1024x1024_S4096x1024_d0)
          transposes_S4096x1024_S1024x4096_1_0) bitsLt_bf16_f32 := by
  dsimp only [V]
  simp only [hostOps0, List.flatten_cons, List.flatten_nil, List.append_nil]
  host_results_simp
  rfl

/-- The bias row as the region finds it: the four sums bW_g + bU_g laid end to end, as one row. -/
theorem biasRow_eq (c : Dev nD) :
    (V m c main_v11 : S1x4096.Idx → EReal)
      = shapeCast S1x4096
          (concatenate (α := Ideal .f32) S4096 0 [⟨S1024, addf (F := Ideal) (m ((c.tc : Thread nD τ).loc main_arg4)) (m ((c.tc : Thread nD τ).loc main_arg12))⟩, ⟨S1024, addf (F := Ideal) (m ((c.tc : Thread nD τ).loc main_arg6)) (m ((c.tc : Thread nD τ).loc main_arg14))⟩,
              ⟨S1024, addf (F := Ideal) (m ((c.tc : Thread nD τ).loc main_arg8)) (m ((c.tc : Thread nD τ).loc main_arg16))⟩, ⟨S1024, addf (F := Ideal) (m ((c.tc : Thread nD τ).loc main_arg10)) (m ((c.tc : Thread nD τ).loc main_arg18))⟩]
            concatenates_S1024_S1024_S1024_S1024_S4096_d0)
          shapeCasts_S4096_S1x4096 := by
  dsimp only [V]
  simp only [hostOps0, List.flatten_cons, List.flatten_nil, List.append_nil]
  host_results_simp
  rfl

/-- The stacked input-to-hidden weights at (k, g · 1024 + q): the weight of gate g at (q, k). -/
theorem stackedW_at (c : Dev nD) (g : Fin 4) (k q : Fin 1024) :
    (V m c main_v3 : S1024x4096.Idx → EReal) (ix2 k (col g q))
      = ((![m ((c.tc : Thread nD τ).loc main_arg3), m ((c.tc : Thread nD τ).loc main_arg5), m ((c.tc : Thread nD τ).loc main_arg7), m ((c.tc : Thread nD τ).loc main_arg9)] : Fin 4 → Cert.Cell.Weight) g) (ix2 q k) := by
  rw [stackedW_eq]
  show transpose S1024x4096 [1, 0]
      (concatenate (α := Ideal .f32) S4096x1024 0 [⟨S1024x1024, (m ((c.tc : Thread nD τ).loc main_arg3))⟩, ⟨S1024x1024, (m ((c.tc : Thread nD τ).loc main_arg5))⟩, ⟨S1024x1024, (m ((c.tc : Thread nD τ).loc main_arg7))⟩, ⟨S1024x1024, (m ((c.tc : Thread nD τ).loc main_arg9))⟩]
        concatenates_S1024x1024_S1024x1024_S1024x1024_S1024x1024_S4096x1024_d0)
      transposes_S4096x1024_S1024x4096_1_0 (ix2 k (col g q)) = _
  exact stacked_transposed_at (α := EReal) (m ((c.tc : Thread nD τ).loc main_arg3)) (m ((c.tc : Thread nD τ).loc main_arg5)) (m ((c.tc : Thread nD τ).loc main_arg7)) (m ((c.tc : Thread nD τ).loc main_arg9))
    concatenates_S1024x1024_S1024x1024_S1024x1024_S1024x1024_S4096x1024_d0 transposes_S4096x1024_S1024x4096_1_0 g k q

/-- The stacked hidden-to-hidden weights at (k, g · 1024 + q): the weight of gate g at (q, k). -/
theorem stackedU_at (c : Dev nD) (g : Fin 4) (k q : Fin 1024) :
    (V m c main_v5 : S1024x4096.Idx → EReal) (ix2 k (col g q))
      = ((![m ((c.tc : Thread nD τ).loc main_arg11), m ((c.tc : Thread nD τ).loc main_arg13), m ((c.tc : Thread nD τ).loc main_arg15), m ((c.tc : Thread nD τ).loc main_arg17)] : Fin 4 → Cert.Cell.Weight) g) (ix2 q k) := by
  rw [stackedU_eq]
  show transpose S1024x4096 [1, 0]
      (concatenate (α := Ideal .f32) S4096x1024 0 [⟨S1024x1024, (m ((c.tc : Thread nD τ).loc main_arg11))⟩, ⟨S1024x1024, (m ((c.tc : Thread nD τ).loc main_arg13))⟩, ⟨S1024x1024, (m ((c.tc : Thread nD τ).loc main_arg15))⟩, ⟨S1024x1024, (m ((c.tc : Thread nD τ).loc main_arg17))⟩]
        concatenates_S1024x1024_S1024x1024_S1024x1024_S1024x1024_S4096x1024_d0)
      transposes_S4096x1024_S1024x4096_1_0 (ix2 k (col g q)) = _
  exact stacked_transposed_at (α := EReal) (m ((c.tc : Thread nD τ).loc main_arg11)) (m ((c.tc : Thread nD τ).loc main_arg13)) (m ((c.tc : Thread nD τ).loc main_arg15)) (m ((c.tc : Thread nD τ).loc main_arg17))
    concatenates_S1024x1024_S1024x1024_S1024x1024_S1024x1024_S4096x1024_d0 transposes_S4096x1024_S1024x4096_1_0 g k q

/-- The bias row at (0, g · 1024 + q): the sum of gate g's two biases at q. -/
theorem biasRow_at (c : Dev nD) (g : Fin 4) (q : Fin 1024) :
    (V m c main_v11 : S1x4096.Idx → EReal) (ix2 (0 : Fin 1) (col g q))
      = ((![m ((c.tc : Thread nD τ).loc main_arg4), m ((c.tc : Thread nD τ).loc main_arg6), m ((c.tc : Thread nD τ).loc main_arg8), m ((c.tc : Thread nD τ).loc main_arg10)] : Fin 4 → Cert.Cell.Bias) g) (ix1 q)
        + ((![m ((c.tc : Thread nD τ).loc main_arg12), m ((c.tc : Thread nD τ).loc main_arg14), m ((c.tc : Thread nD τ).loc main_arg16), m ((c.tc : Thread nD τ).loc main_arg18)] : Fin 4 → Cert.Cell.Bias) g) (ix1 q) := by
  rw [biasRow_eq]
  refine (joined_row_at (α := EReal) _ _ _ _ _ _ g q).trans ?_
  fin_cases g <;> rfl

end Cert.KernelIdeal.CellValue

end
-- ==== Proof.IdealBlocks.lean ====
/-
  From blocks to arrays. Grid point t (of 64) is handed rows 256 t … 256 t + 255 of the three batch arrays and the
  three prepared arrays whole, and writes back rows 256 t … 256 t + 255 of the two results. Row r of the blocks is row
  256 t + r of the arrays, so by the entry lemmas what point t writes back is block t of the LSTM cell's new hidden state
  and new cell state computed from the arguments as launched. The 64 blocks cover the 16384 rows, so after the run the two
  result arrays ARE those two arrays, and every argument is unchanged.
-/
import proofs.«154823_j9663676416791_2_alg».proof.Proof.IdealRun
import proofs.«154823_j9663676416791_2_alg».proof.Proof.CellBlock
import proofs.«154823_j9663676416791_2_alg».proof.Proof.FusedOperands
import Idealize.ShloMosaic.Lib.Pipeline.Value

set_option maxRecDepth 16384

noncomputable section

namespace Cert.KernelIdeal.CellValue

open Cert.KernelIdeal Cert.KernelIdeal.Gen Cert.KernelIdeal.CellFrame
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The new hidden state computed from the arguments as launched. -/
def newHidden (c : Dev nD) : Cert.Cell.Rows := Cert.Cell.hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg7)) (m ((c.tc : Thread nD τ).loc main_arg9)) (m ((c.tc : Thread nD τ).loc main_arg11)) (m ((c.tc : Thread nD τ).loc main_arg13)) (m ((c.tc : Thread nD τ).loc main_arg15)) (m ((c.tc : Thread nD τ).loc main_arg17)) (m ((c.tc : Thread nD τ).loc main_arg4)) (m ((c.tc : Thread nD τ).loc main_arg6)) (m ((c.tc : Thread nD τ).loc main_arg8)) (m ((c.tc : Thread nD τ).loc main_arg10)) (m ((c.tc : Thread nD τ).loc main_arg12)) (m ((c.tc : Thread nD τ).loc main_arg14)) (m ((c.tc : Thread nD τ).loc main_arg16)) (m ((c.tc : Thread nD τ).loc main_arg18))

/-- The new cell state computed from the arguments as launched. -/
def newCell (c : Dev nD) : Cert.Cell.Rows := Cert.Cell.cell (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg7)) (m ((c.tc : Thread nD τ).loc main_arg9)) (m ((c.tc : Thread nD τ).loc main_arg11)) (m ((c.tc : Thread nD τ).loc main_arg13)) (m ((c.tc : Thread nD τ).loc main_arg15)) (m ((c.tc : Thread nD τ).loc main_arg17)) (m ((c.tc : Thread nD τ).loc main_arg4)) (m ((c.tc : Thread nD τ).loc main_arg6)) (m ((c.tc : Thread nD τ).loc main_arg8)) (m ((c.tc : Thread nD τ).loc main_arg10)) (m ((c.tc : Thread nD τ).loc main_arg12)) (m ((c.tc : Thread nD τ).loc main_arg14)) (m ((c.tc : Thread nD τ).loc main_arg16)) (m ((c.tc : Thread nD τ).loc main_arg18))

theorem hz : (![0, 0] : Fin 2 → Nat) = fun _ => 0 := funext fun a => by fin_cases a <;> rfl

/-- The index maps over the grid: the batch windows and the result windows take block t of the rows at point t, the
    three prepared arrays their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem point_lt (t : Fin cfg0.N) : t.val < 64 := lt_of_lt_of_eq t.isLt N_0

/-- Row r of block t is row 256 t + r of the batch. -/
def rowOf (t : Fin cfg0.N) (r : Fin 256) : Fin 16384 := ⟨t.val * 256 + r.val, by have := point_lt t; have := r.isLt; omega⟩

/-! ## The input blocks read at an entry -/

theorem batchX_at (c : Dev nD) (t : Fin cfg0.N) (r : Fin 256) (k : Fin 1024) :
    iblk m c 0 t (ix2 r k) = (m ((c.tc : Thread nD τ).loc main_arg0)) (ix2 (rowOf t r) k) := by
  show V m c main_arg0 (((cfg0.win 0).blk t).view.emb (ix2 r k)) = _
  rw [V_main_arg0]
  refine congrArg (m ((c.tc : Thread nD τ).loc main_arg0)) ?_
  obtain ⟨e0, e1, -⟩ := idx_facts t
  funext a; apply Fin.ext
  match a with
  | ⟨0, _⟩ => show win0_0.index t (0 : Fin 2) * 256 + 1 * r.val = t.val * 256 + r.val; omega
  | ⟨1, _⟩ => show win0_0.index t (1 : Fin 2) * 1024 + 1 * k.val = k.val; omega

theorem batchH_at (c : Dev nD) (t : Fin cfg0.N) (r : Fin 256) (k : Fin 1024) :
    iblk m c 1 t (ix2 r k) = (m ((c.tc : Thread nD τ).loc main_arg1)) (ix2 (rowOf t r) k) := by
  show V m c main_arg1 (((cfg0.win 1).blk t).view.emb (ix2 r k)) = _
  rw [V_main_arg1]
  refine congrArg (m ((c.tc : Thread nD τ).loc main_arg1)) ?_
  obtain ⟨-, -, e0, e1, -⟩ := idx_facts t
  funext a; apply Fin.ext
  match a with
  | ⟨0, _⟩ => show win0_1.index t (0 : Fin 2) * 256 + 1 * r.val = t.val * 256 + r.val; omega
  | ⟨1, _⟩ => show win0_1.index t (1 : Fin 2) * 1024 + 1 * k.val = k.val; omega

theorem batchC_at (c : Dev nD) (t : Fin cfg0.N) (r : Fin 256) (k : Fin 1024) :
    iblk m c 2 t (ix2 r k) = (m ((c.tc : Thread nD τ).loc main_arg2)) (ix2 (rowOf t r) k) := by
  show V m c main_arg2 (((cfg0.win 2).blk t).view.emb (ix2 r k)) = _
  rw [V_main_arg2]
  refine congrArg (m ((c.tc : Thread nD τ).loc main_arg2)) ?_
  obtain ⟨-, -, -, -, e0, e1, -⟩ := idx_facts t
  funext a; apply Fin.ext
  match a with
  | ⟨0, _⟩ => show win0_2.index t (0 : Fin 2) * 256 + 1 * r.val = t.val * 256 + r.val; omega
  | ⟨1, _⟩ => show win0_2.index t (1 : Fin 2) * 1024 + 1 * k.val = k.val; omega

theorem stackedW_blk (c : Dev nD) (t : Fin cfg0.N) (g : Fin 4) (k q : Fin 1024) :
    iblk m c 3 t (ix2 k (col g q))
      = ((![(m ((c.tc : Thread nD τ).loc main_arg3)), (m ((c.tc : Thread nD τ).loc main_arg5)), (m ((c.tc : Thread nD τ).loc main_arg7)), (m ((c.tc : Thread nD τ).loc main_arg9))] : Fin 4 → Cert.Cell.Weight) g) (ix2 q k) := by
  have he : ((cfg0.win 3).blk t).view.emb (ix2 k (col g q)) = ix2 k (col g q) := by
    obtain ⟨-, -, -, -, -, -, e0, e1, -⟩ := idx_facts t
    funext a; apply Fin.ext
    match a with
    | ⟨0, _⟩ => show win0_3.index t (0 : Fin 2) * 1024 + 1 * k.val = k.val; omega
    | ⟨1, _⟩ => show win0_3.index t (1 : Fin 2) * 4096 + 1 * (col g q).val = (col g q).val; omega
  show (V m c main_v3 : S1024x4096.Idx → EReal) (((cfg0.win 3).blk t).view.emb (ix2 k (col g q))) = _
  rw [he]
  exact stackedW_at m c g k q

theorem stackedU_blk (c : Dev nD) (t : Fin cfg0.N) (g : Fin 4) (k q : Fin 1024) :
    iblk m c 4 t (ix2 k (col g q))
      = ((![(m ((c.tc : Thread nD τ).loc main_arg11)), (m ((c.tc : Thread nD τ).loc main_arg13)), (m ((c.tc : Thread nD τ).loc main_arg15)), (m ((c.tc : Thread nD τ).loc main_arg17))] : Fin 4 → Cert.Cell.Weight) g) (ix2 q k) := by
  have he : ((cfg0.win 4).blk t).view.emb (ix2 k (col g q)) = ix2 k (col g q) := by
    obtain ⟨-, -, -, -, -, -, -, -, e0, e1, -⟩ := idx_facts t
    funext a; apply Fin.ext
    match a with
    | ⟨0, _⟩ => show win0_4.index t (0 : Fin 2) * 1024 + 1 * k.val = k.val; omega
    | ⟨1, _⟩ => show win0_4.index t (1 : Fin 2) * 4096 + 1 * (col g q).val = (col g q).val; omega
  show (V m c main_v5 : S1024x4096.Idx → EReal) (((cfg0.win 4).blk t).view.emb (ix2 k (col g q))) = _
  rw [he]
  exact stackedU_at m c g k q

theorem biasRow_blk (c : Dev nD) (t : Fin cfg0.N) (g : Fin 4) (q : Fin 1024) :
    iblk m c 5 t (ix2 (0 : Fin 1) (col g q))
      = ((![(m ((c.tc : Thread nD τ).loc main_arg4)), (m ((c.tc : Thread nD τ).loc main_arg6)), (m ((c.tc : Thread nD τ).loc main_arg8)), (m ((c.tc : Thread nD τ).loc main_arg10))] : Fin 4 → Cert.Cell.Bias) g) (ix1 q)
        + ((![(m ((c.tc : Thread nD τ).loc main_arg12)), (m ((c.tc : Thread nD τ).loc main_arg14)), (m ((c.tc : Thread nD τ).loc main_arg16)), (m ((c.tc : Thread nD τ).loc main_arg18))] : Fin 4 → Cert.Cell.Bias) g) (ix1 q) := by
  have he : ((cfg0.win 5).blk t).view.emb (ix2 (0 : Fin 1) (col g q)) = ix2 (0 : Fin 1) (col g q) := by
    obtain ⟨-, -, -, -, -, -, -, -, -, -, e0, e1, -⟩ := idx_facts t
    funext a; apply Fin.ext
    match a with
    | ⟨0, _⟩ => show win0_5.index t (0 : Fin 2) * 1 + 1 * (0 : Fin 1).val = (0 : Fin 1).val; omega
    | ⟨1, _⟩ => show win0_5.index t (1 : Fin 2) * 4096 + 1 * (col g q).val = (col g q).val; omega
  show (V m c main_v11 : S1x4096.Idx → EReal) (((cfg0.win 5).blk t).view.emb (ix2 (0 : Fin 1) (col g q))) = _
  rw [he]
  exact biasRow_at m c g q

/-! ## What a point writes back -/

/-- Point t writes back block t of the new hidden state. -/
theorem flushedHidden_eq (c : Dev nD) (t : Fin cfg0.N) :
    (dats m 0 c).flushed 6 t = ((cfg0.win 6).blk t).view.read (Elt Ideal) (newHidden m c) := by
  show (cfg0.win 6).cut (grid0.coords t) ((dats m 0 c).after 6 t) = _
  rw [after6]
  unfold outHidden
  rw [View.canon_unit_zero hz]
  simp only [View.ld_unit_zero (S := S256x1024) hz, View.ld_unit_zero (S := S1024x4096) hz, View.ld_unit_zero (S := S1x4096) hz]
  funext j
  obtain ⟨r, q, rfl⟩ : ∃ (r : Fin 256) (q : Fin 1024), j = ix2 r q := ⟨j 0, j 1, eq_ix2 j⟩
  have he : ((cfg0.win 6).blk t).view.emb (ix2 r q) = ix2 (rowOf t r) q := by
    obtain ⟨-, -, -, -, -, -, -, -, -, -, -, -, e0, e1, -⟩ := idx_facts t
    funext a; apply Fin.ext
    match a with
    | ⟨0, _⟩ => show win0_6.index t (0 : Fin 2) * 256 + 1 * r.val = t.val * 256 + r.val; omega
    | ⟨1, _⟩ => show win0_6.index t (1 : Fin 2) * 1024 + 1 * q.val = q.val; omega
  show k0_pay3 (iblk m c 0 t) (iblk m c 1 t) (iblk m c 2 t) (iblk m c 3 t) (iblk m c 4 t) (iblk m c 5 t) (ix2 r q)
    = newHidden m c (((cfg0.win 6).blk t).view.emb (ix2 r q))
  rw [he]
  exact hidden_entry (iblk m c 0 t) (iblk m c 1 t) (iblk m c 2 t) (iblk m c 3 t) (iblk m c 4 t) (iblk m c 5 t)
    (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg7)) (m ((c.tc : Thread nD τ).loc main_arg9)) (m ((c.tc : Thread nD τ).loc main_arg11)) (m ((c.tc : Thread nD τ).loc main_arg13)) (m ((c.tc : Thread nD τ).loc main_arg15)) (m ((c.tc : Thread nD τ).loc main_arg17)) (m ((c.tc : Thread nD τ).loc main_arg4)) (m ((c.tc : Thread nD τ).loc main_arg6)) (m ((c.tc : Thread nD τ).loc main_arg8)) (m ((c.tc : Thread nD τ).loc main_arg10)) (m ((c.tc : Thread nD τ).loc main_arg12)) (m ((c.tc : Thread nD τ).loc main_arg14)) (m ((c.tc : Thread nD τ).loc main_arg16)) (m ((c.tc : Thread nD τ).loc main_arg18))
    (rowOf t r) r (batchX_at m c t r) (batchH_at m c t r) (batchC_at m c t r) (stackedW_blk m c t) (stackedU_blk m c t) (biasRow_blk m c t) q

/-- Point t writes back block t of the new cell state. -/
theorem flushedCell_eq (c : Dev nD) (t : Fin cfg0.N) :
    (dats m 0 c).flushed 7 t = ((cfg0.win 7).blk t).view.read (Elt Ideal) (newCell m c) := by
  show (cfg0.win 7).cut (grid0.coords t) ((dats m 0 c).after 7 t) = _
  rw [after7]
  unfold outCell
  rw [View.canon_unit_zero hz]
  simp only [View.ld_unit_zero (S := S256x1024) hz, View.ld_unit_zero (S := S1024x4096) hz, View.ld_unit_zero (S := S1x4096) hz]
  funext j
  obtain ⟨r, q, rfl⟩ : ∃ (r : Fin 256) (q : Fin 1024), j = ix2 r q := ⟨j 0, j 1, eq_ix2 j⟩
  have he : ((cfg0.win 7).blk t).view.emb (ix2 r q) = ix2 (rowOf t r) q := by
    obtain ⟨-, -, -, -, -, -, -, -, -, -, -, -, -, -, e0, e1⟩ := idx_facts t
    funext a; apply Fin.ext
    match a with
    | ⟨0, _⟩ => show win0_7.index t (0 : Fin 2) * 256 + 1 * r.val = t.val * 256 + r.val; omega
    | ⟨1, _⟩ => show win0_7.index t (1 : Fin 2) * 1024 + 1 * q.val = q.val; omega
  show k0_pay2 (iblk m c 0 t) (iblk m c 1 t) (iblk m c 2 t) (iblk m c 3 t) (iblk m c 4 t) (iblk m c 5 t) (ix2 r q)
    = newCell m c (((cfg0.win 7).blk t).view.emb (ix2 r q))
  rw [he]
  exact cell_entry (iblk m c 0 t) (iblk m c 1 t) (iblk m c 2 t) (iblk m c 3 t) (iblk m c 4 t) (iblk m c 5 t)
    (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg7)) (m ((c.tc : Thread nD τ).loc main_arg9)) (m ((c.tc : Thread nD τ).loc main_arg11)) (m ((c.tc : Thread nD τ).loc main_arg13)) (m ((c.tc : Thread nD τ).loc main_arg15)) (m ((c.tc : Thread nD τ).loc main_arg17)) (m ((c.tc : Thread nD τ).loc main_arg4)) (m ((c.tc : Thread nD τ).loc main_arg6)) (m ((c.tc : Thread nD τ).loc main_arg8)) (m ((c.tc : Thread nD τ).loc main_arg10)) (m ((c.tc : Thread nD τ).loc main_arg12)) (m ((c.tc : Thread nD τ).loc main_arg14)) (m ((c.tc : Thread nD τ).loc main_arg16)) (m ((c.tc : Thread nD τ).loc main_arg18))
    (rowOf t r) r (batchX_at m c t r) (batchH_at m c t r) (batchC_at m c t r) (stackedW_blk m c t) (stackedU_blk m c t) (biasRow_blk m c t) q

/-! ## The blocks cover the arrays -/

theorem mem_blkHidden (t : Fin cfg0.N) (i : S16384x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v12_0).slice (win0_6.rect t)).set ↔ _
  rw [View.set_slice_whole, Rect.mem_set_unit]
  exact Iff.rfl

theorem mem_blkCell (t : Fin cfg0.N) (i : S16384x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v12_1).slice (win0_7.rect t)).set ↔ _
  rw [View.set_slice_whole, Rect.mem_set_unit]
  exact Iff.rfl

/-- The point whose block holds row n. -/
def pointOf (n : Fin 16384) : Fin cfg0.N := ⟨n.val / 256, lt_of_lt_of_eq (by have := n.isLt; omega : n.val / 256 < 64) N_0.symm⟩

/-- Every entry of the hidden-state array is in the block of the point that owns its row. -/
theorem coverHidden (i : S16384x1024.Idx) : ∃ t : Fin cfg0.N, (cfg0.win 6).flush t = true ∧ i ∈ ((cfg0.win 6).blk t).view.set := by
  have hi0 : (i 0).val < 16384 := (i 0).isLt
  have hi1 : (i 1).val < 1024 := (i 1).isLt
  refine ⟨pointOf (i 0), flush0_6 _, ?_⟩
  rw [mem_blkHidden]
  obtain ⟨-, -, -, -, -, -, -, -, -, -, -, -, e0, e1, -⟩ := idx_facts (pointOf (i 0))
  have hp : (pointOf (i 0)).val = (i 0).val / 256 := rfl
  intro a
  match a with
  | ⟨0, _⟩ => show win0_6.index (pointOf (i 0)) (0 : Fin 2) * 256 ≤ (i 0).val ∧ (i 0).val < win0_6.index (pointOf (i 0)) (0 : Fin 2) * 256 + 256; omega
  | ⟨1, _⟩ => show win0_6.index (pointOf (i 0)) (1 : Fin 2) * 1024 ≤ (i 1).val ∧ (i 1).val < win0_6.index (pointOf (i 0)) (1 : Fin 2) * 1024 + 1024; omega

/-- Every entry of the cell-state array is in the block of the point that owns its row. -/
theorem coverCell (i : S16384x1024.Idx) : ∃ t : Fin cfg0.N, (cfg0.win 7).flush t = true ∧ i ∈ ((cfg0.win 7).blk t).view.set := by
  have hi0 : (i 0).val < 16384 := (i 0).isLt
  have hi1 : (i 1).val < 1024 := (i 1).isLt
  refine ⟨pointOf (i 0), flush0_7 _, ?_⟩
  rw [mem_blkCell]
  obtain ⟨-, -, -, -, -, -, -, -, -, -, -, -, -, -, e0, e1⟩ := idx_facts (pointOf (i 0))
  have hp : (pointOf (i 0)).val = (i 0).val / 256 := rfl
  intro a
  match a with
  | ⟨0, _⟩ => show win0_7.index (pointOf (i 0)) (0 : Fin 2) * 256 ≤ (i 0).val ∧ (i 0).val < win0_7.index (pointOf (i 0)) (0 : Fin 2) * 256 + 256; omega
  | ⟨1, _⟩ => show win0_7.index (pointOf (i 0)) (1 : Fin 2) * 1024 ≤ (i 1).val ∧ (i 1).val < win0_7.index (pointOf (i 0)) (1 : Fin 2) * 1024 + 1024; omega

/-! ## The arrays after the run -/

theorem finalHidden (c : Dev nD) : (dats m 0 c).arrAt 6 cfg0.N = newHidden m c :=
  (dats m 0 c).arrAt_eq_of_cover 6 (newHidden m c) (fun t _ => flushedHidden_eq m c t) coverHidden

theorem finalCell (c : Dev nD) : (dats m 0 c).arrAt 7 cfg0.N = newCell m c :=
  (dats m 0 c).arrAt_eq_of_cover 7 (newCell m c) (fun t _ => flushedCell_eq m c t) coverCell

/-- The run: the program terminates without a fault, its hidden-state result (returned twice) is the new hidden state and
    its cell-state result the new cell state of the arguments as launched, and the arguments are unchanged. -/
theorem run : θ_run defs (onTc (τ := τ) (main (F := Ideal))) ⟨m, fun _ => 0, ρ⟩ (fun r => ∀ c : Dev nD,
      r.2.mem ((c.tc : Thread nD τ).loc main_v12_0) = newHidden m c
      ∧ r.2.mem ((c.tc : Thread nD τ).loc main_v12_0) = newHidden m c
      ∧ r.2.mem ((c.tc : Thread nD τ).loc main_v12_1) = newCell m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨((h c).1 6).trans (finalHidden m c), ((h c).1 6).trans (finalHidden m c),
      ((h c).1 7).trans (finalCell m c), args_kept m (dats m) (A_eq m) r h c⟩)
    (run_main m ρ)

end Cert.KernelIdeal.CellValue

end
-- ==== Proof.RefCell.lean ====
/-
  The reference program's two results, read entry by entry: the new hidden state and the new cell state of the LSTM cell.

  The program computes the four gates one after the other, and each the same way: the rows of the input against the
  rows of a weight (a product with the transposed weight), plus that layer's bias repeated along the batch, plus the
  same for the previous hidden state with a second weight and a second bias. So the four pre-activations are one
  function of different arguments: it is read once, on the first gate, and the other three are that reading at other
  weights and biases. Three of the gates then pass through 1 / (1 + e⁻ᵃ), written with the number one as a repeated
  constant: that is the logistic function, by its definition. The rest is two products, a sum, a hyperbolic tangent
  and a last product, each entry by entry.
-/
import proofs.«154823_j9663676416791_2_alg».proof.Proof.Gen.ReferenceIdeal.Read
import proofs.«154823_j9663676416791_2_alg».proof.Proof.CellSpec

noncomputable section

namespace Cert.ReferenceIdeal.RefCell

open Idealize.ShloMosaic Idealize.ShloMosaic.TcCoe Idealize.SL.Sem Idealize.ShloMosaic.ValueIdx
open Cert.Cell (lin gate cellAt hiddenAt cell hidden)

/-- An index with two coordinates is the pair of them: it is enough to know the two coordinates' values. -/
theorem eq_ix2_of_val {n0 n1 : Nat} (j : (⟨2, ![n0, n1]⟩ : Shape).Idx) (a : Fin n0) (b : Fin n1)
    (h0 : (j 0).val = a.val) (h1 : (j 1).val = b.val) : j = ix2 a b := by
  funext d
  match d with
  | ⟨0, _⟩ => exact Fin.ext h0
  | ⟨1, _⟩ => exact Fin.ext h1

/-- The same for an index with one coordinate. -/
theorem eq_ix1_of_val {n : Nat} (j : (⟨1, ![n]⟩ : Shape).Idx) (a : Fin n) (h0 : (j 0).val = a.val) : j = ix1 a := by
  funext d
  match d with
  | ⟨0, _⟩ => exact Fin.ext h0

/-- The product with a transposed weight, at (p, q): the row p of x against the row q of W. The transposition
    swaps the weight's two coordinates, so the contracted coordinate k is the second one on both sides. -/
theorem lin_read (x : (⟨S16384x1024, .f32⟩ : BufTy).Contents (Elt Ideal)) (W : (⟨S1024x1024, .f32⟩ : BufTy).Contents (Elt Ideal)) (p : Fin 16384) (q : Fin 1024) :
    Read.val_main_v1 (F := Ideal) x W (ix2 p q) = lin x W p q := by
  rw [Read.val_main_v1_apply]
  unfold Cert.Cell.lin
  refine Finset.sum_congr rfl fun k _ => ?_
  rw [Read.val_main_v0_apply]
  exact congrArg₂ (· * ·)
    (congrArg x (eq_ix2_of_val (Read.lidx_main_v1 (ix2 p q) k) p k rfl rfl))
    (congrArg W (eq_ix2_of_val (Read.idx_main_v0 (Read.ridx_main_v1 (ix2 p q) k)) q k rfl rfl))

/-- A bias repeated along the batch, at (p, q): the entry q of the bias, whatever the row p. -/
theorem bias_read (b : (⟨S1024, .f32⟩ : BufTy).Contents (Elt Ideal)) (p : Fin 16384) (q : Fin 1024) :
    Read.val_main_v3 (F := Ideal) b (ix2 p q) = b (ix1 q) := by
  rw [Read.val_main_v3_apply, Read.val_main_v2_apply]
  exact congrArg b (eq_ix1_of_val (Read.idx_main_v2 (Read.idx_main_v3 (ix2 p q))) q rfl)

/-- A gate's pre-activation at (p, q): ((x·Wᵀ + bW) + h·Uᵀ) + bU. The second layer's product and bias are the first
    layer's stages at h, U and bU. -/
theorem gate_read (x h : (⟨S16384x1024, .f32⟩ : BufTy).Contents (Elt Ideal)) (W : (⟨S1024x1024, .f32⟩ : BufTy).Contents (Elt Ideal)) (bW : (⟨S1024, .f32⟩ : BufTy).Contents (Elt Ideal)) (U : (⟨S1024x1024, .f32⟩ : BufTy).Contents (Elt Ideal)) (bU : (⟨S1024, .f32⟩ : BufTy).Contents (Elt Ideal))
    (p : Fin 16384) (q : Fin 1024) :
    Read.val_main_v10 (F := Ideal) x h W bW U bU (ix2 p q) = gate x h W U bW bU p q := by
  rw [Read.val_main_v10_apply, Read.val_main_v7_apply, Read.val_main_v4_apply, lin_read, bias_read,
    show Read.val_main_v6 (F := Ideal) h U (ix2 p q) = lin h U p q from lin_read h U p q,
    show Read.val_main_v9 (F := Ideal) bU (ix2 p q) = bU (ix1 q) from bias_read bU p q]
  rfl

/-- A squashed gate at (p, q): 1 / (1 + e⁻ᵃ) of the pre-activation a, with the word 0x3F800000 for the number one,
    is the logistic function of a. -/
theorem squash_read (x h : (⟨S16384x1024, .f32⟩ : BufTy).Contents (Elt Ideal)) (W : (⟨S1024x1024, .f32⟩ : BufTy).Contents (Elt Ideal)) (bW : (⟨S1024, .f32⟩ : BufTy).Contents (Elt Ideal)) (U : (⟨S1024x1024, .f32⟩ : BufTy).Contents (Elt Ideal)) (bU : (⟨S1024, .f32⟩ : BufTy).Contents (Elt Ideal))
    (p : Fin 16384) (q : Fin 1024) :
    Read.val_main_v16 (F := Ideal) x h W bW U bU (ix2 p q) = Ideal.logistic (gate x h W U bW bU p q) := by
  rw [Read.val_main_v16_apply, Read.val_main_v15_apply, Read.val_main_cst_0_apply, Read.val_main_v14_apply,
    Read.val_main_v13_apply, Read.val_main_cst_apply, Read.val_main_v12_apply, Read.val_main_v11_apply, gate_read,
    Ideal.ofBits_def, Cert.Cell.one_f32]
  rfl

/-- The new cell state at (p, q): σ(a_f) · c + σ(a_i) · a_c. The forget gate and the candidate are the first gate's
    stages at their own weights and biases. The output gate's weights and biases do not occur. -/
theorem cell_read (a0 : (⟨S16384x1024, .f32⟩ : BufTy).Contents (Elt Ideal)) (a1 : (⟨S16384x1024, .f32⟩ : BufTy).Contents (Elt Ideal)) (a2 : (⟨S16384x1024, .f32⟩ : BufTy).Contents (Elt Ideal)) (a3 : (⟨S1024x1024, .f32⟩ : BufTy).Contents (Elt Ideal)) (a4 : (⟨S1024, .f32⟩ : BufTy).Contents (Elt Ideal)) (a5 : (⟨S1024x1024, .f32⟩ : BufTy).Contents (Elt Ideal)) (a6 : (⟨S1024, .f32⟩ : BufTy).Contents (Elt Ideal)) (a7 : (⟨S1024x1024, .f32⟩ : BufTy).Contents (Elt Ideal)) (a8 : (⟨S1024, .f32⟩ : BufTy).Contents (Elt Ideal)) (a9 : (⟨S1024x1024, .f32⟩ : BufTy).Contents (Elt Ideal)) (a10 : (⟨S1024, .f32⟩ : BufTy).Contents (Elt Ideal)) (a11 : (⟨S1024x1024, .f32⟩ : BufTy).Contents (Elt Ideal)) (a12 : (⟨S1024, .f32⟩ : BufTy).Contents (Elt Ideal)) (a13 : (⟨S1024x1024, .f32⟩ : BufTy).Contents (Elt Ideal)) (a14 : (⟨S1024, .f32⟩ : BufTy).Contents (Elt Ideal)) (a15 : (⟨S1024x1024, .f32⟩ : BufTy).Contents (Elt Ideal)) (a16 : (⟨S1024, .f32⟩ : BufTy).Contents (Elt Ideal)) (a17 : (⟨S1024x1024, .f32⟩ : BufTy).Contents (Elt Ideal)) (a18 : (⟨S1024, .f32⟩ : BufTy).Contents (Elt Ideal))
    (p : Fin 16384) (q : Fin 1024) :
    Read.val_main_v64 (F := Ideal) a0 a1 a2 a3 a4 a7 a8 a9 a10 a11 a12 a15 a16 a17 a18 (ix2 p q)
      = cellAt a0 a1 a2 a3 a5 a7 a9 a11 a13 a15 a17 a4 a6 a8 a10 a12 a14 a16 a18 p q := by
  rw [Read.val_main_v64_apply, Read.val_main_v62_apply, Read.val_main_v63_apply,
    show Read.val_main_v50 (F := Ideal) a0 a1 a7 a8 a15 a16 (ix2 p q) = Ideal.logistic (gate a0 a1 a7 a15 a8 a16 p q)
      from squash_read a0 a1 a7 a8 a15 a16 p q,
    squash_read a0 a1 a3 a4 a11 a12 p q,
    show Read.val_main_v61 (F := Ideal) a0 a1 a9 a10 a17 a18 (ix2 p q) = gate a0 a1 a9 a17 a10 a18 p q
      from gate_read a0 a1 a9 a10 a17 a18 p q]
  rfl

/-- The new hidden state at (p, q): σ(a_o) · tanh C. -/
theorem hidden_read (a0 : (⟨S16384x1024, .f32⟩ : BufTy).Contents (Elt Ideal)) (a1 : (⟨S16384x1024, .f32⟩ : BufTy).Contents (Elt Ideal)) (a2 : (⟨S16384x1024, .f32⟩ : BufTy).Contents (Elt Ideal)) (a3 : (⟨S1024x1024, .f32⟩ : BufTy).Contents (Elt Ideal)) (a4 : (⟨S1024, .f32⟩ : BufTy).Contents (Elt Ideal)) (a5 : (⟨S1024x1024, .f32⟩ : BufTy).Contents (Elt Ideal)) (a6 : (⟨S1024, .f32⟩ : BufTy).Contents (Elt Ideal)) (a7 : (⟨S1024x1024, .f32⟩ : BufTy).Contents (Elt Ideal)) (a8 : (⟨S1024, .f32⟩ : BufTy).Contents (Elt Ideal)) (a9 : (⟨S1024x1024, .f32⟩ : BufTy).Contents (Elt Ideal)) (a10 : (⟨S1024, .f32⟩ : BufTy).Contents (Elt Ideal)) (a11 : (⟨S1024x1024, .f32⟩ : BufTy).Contents (Elt Ideal)) (a12 : (⟨S1024, .f32⟩ : BufTy).Contents (Elt Ideal)) (a13 : (⟨S1024x1024, .f32⟩ : BufTy).Contents (Elt Ideal)) (a14 : (⟨S1024, .f32⟩ : BufTy).Contents (Elt Ideal)) (a15 : (⟨S1024x1024, .f32⟩ : BufTy).Contents (Elt Ideal)) (a16 : (⟨S1024, .f32⟩ : BufTy).Contents (Elt Ideal)) (a17 : (⟨S1024x1024, .f32⟩ : BufTy).Contents (Elt Ideal)) (a18 : (⟨S1024, .f32⟩ : BufTy).Contents (Elt Ideal))
    (p : Fin 16384) (q : Fin 1024) :
    Read.val_main_v66 (F := Ideal) a0 a1 a2 a3 a4 a5 a6 a7 a8 a9 a10 a11 a12 a13 a14 a15 a16 a17 a18 (ix2 p q)
      = hiddenAt a0 a1 a2 a3 a5 a7 a9 a11 a13 a15 a17 a4 a6 a8 a10 a12 a14 a16 a18 p q := by
  rw [Read.val_main_v66_apply, Read.val_main_v65_apply,
    show Read.val_main_v33 (F := Ideal) a0 a1 a5 a6 a13 a14 (ix2 p q) = Ideal.logistic (gate a0 a1 a5 a13 a6 a14 p q)
      from squash_read a0 a1 a5 a6 a13 a14 p q,
    cell_read a0 a1 a2 a3 a4 a5 a6 a7 a8 a9 a10 a11 a12 a13 a14 a15 a16 a17 a18 p q]
  rfl

/-- The program's last stage, the whole array, is the new hidden state. -/
theorem hidden_eq (a0 : (⟨S16384x1024, .f32⟩ : BufTy).Contents (Elt Ideal)) (a1 : (⟨S16384x1024, .f32⟩ : BufTy).Contents (Elt Ideal)) (a2 : (⟨S16384x1024, .f32⟩ : BufTy).Contents (Elt Ideal)) (a3 : (⟨S1024x1024, .f32⟩ : BufTy).Contents (Elt Ideal)) (a4 : (⟨S1024, .f32⟩ : BufTy).Contents (Elt Ideal)) (a5 : (⟨S1024x1024, .f32⟩ : BufTy).Contents (Elt Ideal)) (a6 : (⟨S1024, .f32⟩ : BufTy).Contents (Elt Ideal)) (a7 : (⟨S1024x1024, .f32⟩ : BufTy).Contents (Elt Ideal)) (a8 : (⟨S1024, .f32⟩ : BufTy).Contents (Elt Ideal)) (a9 : (⟨S1024x1024, .f32⟩ : BufTy).Contents (Elt Ideal)) (a10 : (⟨S1024, .f32⟩ : BufTy).Contents (Elt Ideal)) (a11 : (⟨S1024x1024, .f32⟩ : BufTy).Contents (Elt Ideal)) (a12 : (⟨S1024, .f32⟩ : BufTy).Contents (Elt Ideal)) (a13 : (⟨S1024x1024, .f32⟩ : BufTy).Contents (Elt Ideal)) (a14 : (⟨S1024, .f32⟩ : BufTy).Contents (Elt Ideal)) (a15 : (⟨S1024x1024, .f32⟩ : BufTy).Contents (Elt Ideal)) (a16 : (⟨S1024, .f32⟩ : BufTy).Contents (Elt Ideal)) (a17 : (⟨S1024x1024, .f32⟩ : BufTy).Contents (Elt Ideal)) (a18 : (⟨S1024, .f32⟩ : BufTy).Contents (Elt Ideal)) :
    Read.val_main_v66 (F := Ideal) a0 a1 a2 a3 a4 a5 a6 a7 a8 a9 a10 a11 a12 a13 a14 a15 a16 a17 a18
      = hidden a0 a1 a2 a3 a5 a7 a9 a11 a13 a15 a17 a4 a6 a8 a10 a12 a14 a16 a18 := by
  funext i
  obtain ⟨p, q, rfl⟩ : ∃ (p : Fin 16384) (q : Fin 1024), i = ix2 p q := ⟨i 0, i 1, eq_ix2 i⟩
  exact hidden_read a0 a1 a2 a3 a4 a5 a6 a7 a8 a9 a10 a11 a12 a13 a14 a15 a16 a17 a18 p q

/-- The stage that the hidden state is computed from, the whole array, is the new cell state. -/
theorem cell_eq (a0 : (⟨S16384x1024, .f32⟩ : BufTy).Contents (Elt Ideal)) (a1 : (⟨S16384x1024, .f32⟩ : BufTy).Contents (Elt Ideal)) (a2 : (⟨S16384x1024, .f32⟩ : BufTy).Contents (Elt Ideal)) (a3 : (⟨S1024x1024, .f32⟩ : BufTy).Contents (Elt Ideal)) (a4 : (⟨S1024, .f32⟩ : BufTy).Contents (Elt Ideal)) (a5 : (⟨S1024x1024, .f32⟩ : BufTy).Contents (Elt Ideal)) (a6 : (⟨S1024, .f32⟩ : BufTy).Contents (Elt Ideal)) (a7 : (⟨S1024x1024, .f32⟩ : BufTy).Contents (Elt Ideal)) (a8 : (⟨S1024, .f32⟩ : BufTy).Contents (Elt Ideal)) (a9 : (⟨S1024x1024, .f32⟩ : BufTy).Contents (Elt Ideal)) (a10 : (⟨S1024, .f32⟩ : BufTy).Contents (Elt Ideal)) (a11 : (⟨S1024x1024, .f32⟩ : BufTy).Contents (Elt Ideal)) (a12 : (⟨S1024, .f32⟩ : BufTy).Contents (Elt Ideal)) (a13 : (⟨S1024x1024, .f32⟩ : BufTy).Contents (Elt Ideal)) (a14 : (⟨S1024, .f32⟩ : BufTy).Contents (Elt Ideal)) (a15 : (⟨S1024x1024, .f32⟩ : BufTy).Contents (Elt Ideal)) (a16 : (⟨S1024, .f32⟩ : BufTy).Contents (Elt Ideal)) (a17 : (⟨S1024x1024, .f32⟩ : BufTy).Contents (Elt Ideal)) (a18 : (⟨S1024, .f32⟩ : BufTy).Contents (Elt Ideal)) :
    Read.val_main_v64 (F := Ideal) a0 a1 a2 a3 a4 a7 a8 a9 a10 a11 a12 a15 a16 a17 a18
      = cell a0 a1 a2 a3 a5 a7 a9 a11 a13 a15 a17 a4 a6 a8 a10 a12 a14 a16 a18 := by
  funext i
  obtain ⟨p, q, rfl⟩ : ∃ (p : Fin 16384) (q : Fin 1024), i = ix2 p q := ⟨i 0, i 1, eq_ix2 i⟩
  exact cell_read a0 a1 a2 a3 a4 a5 a6 a7 a8 a9 a10 a11 a12 a13 a14 a15 a16 a17 a18 p q

/-- The reference's run over the specification: every weakly fair execution terminates with the first two results at
    the new hidden state and the third at the new cell state of the arguments' contents at launch, and the nineteen
    arguments unchanged. -/
theorem run (m : (ℓ : Loc nD τ sig) → Buf (Elt Ideal) ℓ) (ρ : Dev nD → PrngReg) :
    θ_run Cert.ReferenceIdeal.defs (onTc (τ := τ) (main (F := Ideal))) ⟨m, fun _ => 0, ρ⟩ fun r => ∀ c : Dev nD,
      r.2.mem ((c.tc : Thread nD τ).loc main_v66) = hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg7)) (m ((c.tc : Thread nD τ).loc main_arg9)) (m ((c.tc : Thread nD τ).loc main_arg11)) (m ((c.tc : Thread nD τ).loc main_arg13)) (m ((c.tc : Thread nD τ).loc main_arg15)) (m ((c.tc : Thread nD τ).loc main_arg17)) (m ((c.tc : Thread nD τ).loc main_arg4)) (m ((c.tc : Thread nD τ).loc main_arg6)) (m ((c.tc : Thread nD τ).loc main_arg8)) (m ((c.tc : Thread nD τ).loc main_arg10)) (m ((c.tc : Thread nD τ).loc main_arg12)) (m ((c.tc : Thread nD τ).loc main_arg14)) (m ((c.tc : Thread nD τ).loc main_arg16)) (m ((c.tc : Thread nD τ).loc main_arg18))
      ∧ r.2.mem ((c.tc : Thread nD τ).loc main_v66) = hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg7)) (m ((c.tc : Thread nD τ).loc main_arg9)) (m ((c.tc : Thread nD τ).loc main_arg11)) (m ((c.tc : Thread nD τ).loc main_arg13)) (m ((c.tc : Thread nD τ).loc main_arg15)) (m ((c.tc : Thread nD τ).loc main_arg17)) (m ((c.tc : Thread nD τ).loc main_arg4)) (m ((c.tc : Thread nD τ).loc main_arg6)) (m ((c.tc : Thread nD τ).loc main_arg8)) (m ((c.tc : Thread nD τ).loc main_arg10)) (m ((c.tc : Thread nD τ).loc main_arg12)) (m ((c.tc : Thread nD τ).loc main_arg14)) (m ((c.tc : Thread nD τ).loc main_arg16)) (m ((c.tc : Thread nD τ).loc main_arg18))
      ∧ r.2.mem ((c.tc : Thread nD τ).loc main_v64) = cell (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg7)) (m ((c.tc : Thread nD τ).loc main_arg9)) (m ((c.tc : Thread nD τ).loc main_arg11)) (m ((c.tc : Thread nD τ).loc main_arg13)) (m ((c.tc : Thread nD τ).loc main_arg15)) (m ((c.tc : Thread nD τ).loc main_arg17)) (m ((c.tc : Thread nD τ).loc main_arg4)) (m ((c.tc : Thread nD τ).loc main_arg6)) (m ((c.tc : Thread nD τ).loc main_arg8)) (m ((c.tc : Thread nD τ).loc main_arg10)) (m ((c.tc : Thread nD τ).loc main_arg12)) (m ((c.tc : Thread nD τ).loc main_arg14)) (m ((c.tc : Thread nD τ).loc main_arg16)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run Cert.ReferenceIdeal.defs _ _).mono (fun _ h c =>
    ⟨((h c).1.trans (Read.val_main_v66_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)))).trans
        (hidden_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))),
      ((h c).2.1.trans (Read.val_main_v66_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)))).trans
        (hidden_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))),
      ((h c).2.2.1.trans (Read.val_main_v64_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg15)) (m ((c.tc : Thread nD τ).loc main_arg16)) (m ((c.tc : Thread nD τ).loc main_arg17)) (m ((c.tc : Thread nD τ).loc main_arg18)))).trans
        (cell_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))),
      (h c).2.2.2⟩)
    (Value.run (F := Ideal) m ρ)

end Cert.ReferenceIdeal.RefCell

end
-- ==== Proof.lean ====
/-
  An LSTM cell forward pass as a Pallas kernel against plain jnp, equal over the extended reals.

  The reference computes, for each gate g ∈ {i, o, f, c}, a_g = ((x · W_gᵀ + bW_g) + h · U_gᵀ) + bU_g, then
  C = σ(a_f) · c + σ(a_i) · a_c and H = σ(a_o) · tanh C, and returns (H, H, C). The kernel stacks the four W_g (and the four
  U_g) into one [1024, 4096] matrix, adds each gate's two biases first, computes z = (x · A + h · B) + b over 64 blocks of
  256 rows, cuts z into the four gates' columns and applies the same σ, tanh, products and sum. Entry by entry the only
  difference is the grouping of a gate's four summands, (s₁ + s₂) + (b₁ + b₂) against ((s₁ + b₁) + s₂) + b₂: equal because
  addition on the extended reals is commutative and associative, with no finiteness needed. A change of float format is the
  identity on the extended reals, a matrix product into a zero accumulator is the plain sum of products, and jnp's sigmoid
  written as 1 / (1 + e⁻ˣ) is the logistic function the kernel applies.

  The kernel programs' frames (they terminate, fault nowhere and leave their arguments unchanged) are proved from the body's
  triple and the pipeline's launch theorem (BitsEntry / BitsBody / BitsRun at the word level, IdealEntry / IdealBody / IdealRun
  for the idealized program); the idealized kernel's results are read off that run block by block (CellBlock, FusedLayout,
  FusedOperands, IdealBlocks); the reference's results are read off its run operation by operation (RefCell); both against
  one specification (CellSpec).
-/
import proofs.«154823_j9663676416791_2_alg».proof.Defs
import proofs.«154823_j9663676416791_2_alg».proof.Proof.Gen.Kernel
import proofs.«154823_j9663676416791_2_alg».proof.Proof.Gen.KernelIdeal
import proofs.«154823_j9663676416791_2_alg».proof.Proof.Gen.ReferenceIdeal
import proofs.«154823_j9663676416791_2_alg».proof.Proof.Gen.Pre_finite_inputs
import proofs.«154823_j9663676416791_2_alg».proof.Proof.BitsRun
import proofs.«154823_j9663676416791_2_alg».proof.Proof.IdealBlocks
import proofs.«154823_j9663676416791_2_alg».proof.Proof.RefCell
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.CellFrame.frame m ρ

/-- The idealized kernel program runs and leaves its arguments unchanged. -/
theorem frame_kernelIdeal : Cert.frame_KernelIdeal := fun m ρ _ => Cert.KernelIdeal.CellFrame.frame m ρ

/-- The reference runs and leaves its arguments unchanged: its run, the results dropped. -/
theorem frame_reference : Cert.frame_ReferenceIdeal := fun m ρ _ =>
  (θ_run Cert.ReferenceIdeal.defs _ _).mono (fun _ h c => (h c).2.2.2) (Cert.ReferenceIdeal.RefCell.run m ρ)

/-- The idealization rewrote nothing. -/
theorem preserves : Cert.preserves_Kernel_KernelIdeal := trivial

/-- The cell's new hidden state depends only on its nineteen arguments. -/
theorem hidden_congr {x h c x' h' c' : Cert.Cell.Rows} {Wi Wo Wf Wc Ui Uo Uf Uc Wi' Wo' Wf' Wc' Ui' Uo' Uf' Uc' : Cert.Cell.Weight}
    {bWi bWo bWf bWc bUi bUo bUf bUc bWi' bWo' bWf' bWc' bUi' bUo' bUf' bUc' : Cert.Cell.Bias}
    (e0 : x = x') (e1 : h = h') (e2 : c = c') (e3 : Wi = Wi') (e4 : bWi = bWi') (e5 : Wo = Wo') (e6 : bWo = bWo') (e7 : Wf = Wf') (e8 : bWf = bWf') (e9 : Wc = Wc') (e10 : bWc = bWc') (e11 : Ui = Ui') (e12 : bUi = bUi') (e13 : Uo = Uo') (e14 : bUo = bUo') (e15 : Uf = Uf') (e16 : bUf = bUf') (e17 : Uc = Uc') (e18 : bUc = bUc') :
    Cert.Cell.hidden x h c Wi Wo Wf Wc Ui Uo Uf Uc bWi bWo bWf bWc bUi bUo bUf bUc = Cert.Cell.hidden x' h' c' Wi' Wo' Wf' Wc' Ui' Uo' Uf' Uc' bWi' bWo' bWf' bWc' bUi' bUo' bUf' bUc' := by
  subst e0 e1 e2 e3 e4 e5 e6 e7 e8 e9 e10 e11 e12 e13 e14 e15 e16 e17 e18; rfl

/-- The cell's new cell state depends only on its nineteen arguments. -/
theorem cell_congr {x h c x' h' c' : Cert.Cell.Rows} {Wi Wo Wf Wc Ui Uo Uf Uc Wi' Wo' Wf' Wc' Ui' Uo' Uf' Uc' : Cert.Cell.Weight}
    {bWi bWo bWf bWc bUi bUo bUf bUc bWi' bWo' bWf' bWc' bUi' bUo' bUf' bUc' : Cert.Cell.Bias}
    (e0 : x = x') (e1 : h = h') (e2 : c = c') (e3 : Wi = Wi') (e4 : bWi = bWi') (e5 : Wo = Wo') (e6 : bWo = bWo') (e7 : Wf = Wf') (e8 : bWf = bWf') (e9 : Wc = Wc') (e10 : bWc = bWc') (e11 : Ui = Ui') (e12 : bUi = bUi') (e13 : Uo = Uo') (e14 : bUo = bUo') (e15 : Uf = Uf') (e16 : bUf = bUf') (e17 : Uc = Uc') (e18 : bUc = bUc') :
    Cert.Cell.cell x h c Wi Wo Wf Wc Ui Uo Uf Uc bWi bWo bWf bWc bUi bUo bUf bUc = Cert.Cell.cell x' h' c' Wi' Wo' Wf' Wc' Ui' Uo' Uf' Uc' bWi' bWo' bWf' bWc' bUi' bUo' bUf' bUc' := by
  subst e0 e1 e2 e3 e4 e5 e6 e7 e8 e9 e10 e11 e12 e13 e14 e15 e16 e17 e18; rfl

set_option maxHeartbeats 1000000 in
/-- From memories agreeing on the nineteen arguments both programs end with the new hidden state (twice) and the new cell
    state of the LSTM cell of those arguments. -/
theorem algebraic : Cert.algebraic_KernelIdeal_ReferenceIdeal := by
  intro m ρ m' ρ' _ hagree
  refine ⟨fun c => Cert.KernelIdeal.CellValue.newHidden m c, fun c => Cert.KernelIdeal.CellValue.newHidden m c,
    fun c => Cert.KernelIdeal.CellValue.newCell m c, Cert.KernelIdeal.CellValue.run m ρ, ?_⟩
  refine (θ_run Cert.ReferenceIdeal.defs _ _).mono (fun _ h c => ?_) (Cert.ReferenceIdeal.RefCell.run m' ρ')
  obtain ⟨a0, a1, a2, a3, a4, a5, a6, a7, a8, a9, a10, a11, a12, a13, a14, a15, a16, a17, a18⟩ := hagree c
  refine ⟨(h c).1.trans ?_, (h c).2.1.trans ?_, (h c).2.2.1.trans ?_, (h c).2.2.2⟩
  · exact hidden_congr a0 a1 a2 a3 a4 a5 a6 a7 a8 a9 a10 a11 a12 a13 a14 a15 a16 a17 a18
  · exact hidden_congr a0 a1 a2 a3 a4 a5 a6 a7 a8 a9 a10 a11 a12 a13 a14 a15 a16 a17 a18
  · exact cell_congr a0 a1 a2 a3 a4 a5 a6 a7 a8 a9 a10 a11 a12 a13 a14 a15 a16 a17 a18

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
